-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S32000x128 : Shape := ⟨2, ![32000, 128]⟩
abbrev S128x256 : Shape := ⟨2, ![128, 256]⟩
abbrev S256x256 : Shape := ⟨2, ![256, 256]⟩
abbrev S256 : Shape := ⟨1, ![256]⟩
abbrev S32000x256 : Shape := ⟨2, ![32000, 256]⟩
abbrev S32000 : Shape := ⟨1, ![32000]⟩
abbrev S_ : Shape := ⟨0, ![]⟩

class Facts : Prop where
  bcast_S_S32000x128 : S_.BroadcastsInDim S32000x128 (![] : Fin 0 → Fin S32000x128.rank)
  reducesTo_S32000x128_S_d0_1 : S32000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S32000x256 : S_.BroadcastsInDim S32000x256 (![] : Fin 0 → Fin S32000x256.rank)
  reducesTo_S32000x256_S_d0_1 : S32000x256.ReducesTo [0, 1] S_
  bcast_S_S32000 : S_.BroadcastsInDim S32000 (![] : Fin 0 → Fin S32000.rank)
  reducesTo_S32000_S_d0 : S32000.ReducesTo [0] S_

variable [Facts]

def fn_part7 {F : FTy → Type} [FloatOps F] (main_arg26 : FVec F S32000x256 .f32) (main_arg27 : FVec F S32000 .f32) (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  let main_v124 : FVec F S32000x256 .f32 := Host.absf main_arg26
  let main_cst_48 : FVec F S_ .f32 := constant S_ .f32 0x7F800000#32
  let main_v125 : FVec F S32000x256 .f32 := broadcastInDim S32000x256 ![] bcast_S_S32000x256 main_cst_48
  let main_v126 : IVec S32000x256 1 := cmpf .olt main_v124 main_v125
  let main_c_49 : IVec S_ 1 := constantI S_ 1 1#1
  let main_v127 : IVec S_ 1 := (fun x v => Host.reduce IntOp.andi x v reducesTo_S32000x256_S_d0_1 h_S_) main_v126 main_c_49
  let main_v128 : IVec S_ 1 := andi main_v123 main_v127
  let main_v129 : FVec F S32000 .f32 := Host.absf main_arg27
  let main_cst_50 : FVec F S_ .f32 := constant S_ .f32 0x7F800000#32
  let main_v130 : FVec F S32000 .f32 := broadcastInDim S32000 ![] bcast_S_S32000 main_cst_50
  let main_v131 : IVec S32000 1 := cmpf .olt main_v129 main_v130
  let main_c_51 : IVec S_ 1 := constantI S_ 1 1#1
  let main_v132 : IVec S_ 1 := (fun x v => Host.reduce IntOp.andi x v reducesTo_S32000_S_d0 h_S_) main_v131 main_c_51
  let main_v133 : IVec S_ 1 := andi main_v128 main_v132
  main_v133

def fn_part6 {F : FTy → Type} [FloatOps F] (main_arg22 : FVec F S256 .f32) (main_arg23 : FVec F S256x256 .f32) (main_arg24 : FVec F S256x256 .f32) (main_arg25 : FVec F S256 .f32) (main_arg26 : FVec F S32000x256 .f32) (main_arg27 : FVec F S32000 .f32) (main_v98 : IVec S_ 1) (main_v101 : IVec S256x256 1) (main_c_39 : IVec S_ 1) : IVec S_ 1 :=
  let main_v102 : IVec S_ 1 := (fun x v => Host.reduce IntOp.andi x v reducesTo_S256x256_S_d0_1 h_S_) main_v101 main_c_39
  let main_v103 : IVec S_ 1 := andi main_v98 main_v102
  let main_v104 : FVec F S256 .f32 := Host.absf main_arg22
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256x256 .f32 := Host.absf main_arg23
  let main_cst_42 : FVec F S_ .f32 := constant S_ .f32 0x7F800000#32
  let main_v110 : FVec F S256x256 .f32 := broadcastInDim S256x256 ![] bcast_S_S256x256 main_cst_42
  let main_v111 : IVec S256x256 1 := cmpf .olt main_v109 main_v110
  let main_c_43 : IVec S_ 1 := constantI S_ 1 1#1
  let main_v112 : IVec S_ 1 := (fun x v => Host.reduce IntOp.andi x v reducesTo_S256x256_S_d0_1 h_S_) main_v111 main_c_43
  let main_v113 : IVec S_ 1 := andi main_v108 main_v112
  let main_v114 : FVec F S256x256 .f32 := Host.absf main_arg24
  let main_cst_44 : FVec F S_ .f32 := constant S_ .f32 0x7F800000#32
  let main_v115 : FVec F S256x256 .f32 := broadcastInDim S256x256 ![] bcast_S_S256x256 main_cst_44
  let main_v116 : IVec S256x256 1 := cmpf .olt main_v114 main_v115
  let main_c_45 : IVec S_ 1 := constantI S_ 1 1#1
  let main_v117 : IVec S_ 1 := (fun x v => Host.reduce IntOp.andi x v reducesTo_S256x256_S_d0_1 h_S_) main_v116 main_c_45
  let main_v118 : IVec S_ 1 := andi main_v113 main_v117
  let main_v119 : FVec F S256 .f32 := Host.absf main_arg25
  fn_part7 (F := F) main_arg26 main_arg27 main_v118 main_v119

def fn_part5 {F : FTy → Type} [FloatOps F] (main_arg19 : FVec F S256 .f32) (main_arg20 : FVec F S256x256 .f32) (main_arg21 : FVec F S256x256 .f32) (main_arg22 : FVec F S256 .f32) (main_arg23 : FVec F S256x256 .f32) (main_arg24 : FVec F S256x256 .f32) (main_arg25 : FVec F S256 .f32) (main_arg26 : FVec F S32000x256 .f32) (main_arg27 : FVec F S32000 .f32) (main_v83 : IVec S_ 1) (main_v84 : FVec F S256x256 .f32) (main_cst_32 : FVec F S_ .f32) : IVec S_ 1 :=
  let main_v85 : FVec F S256x256 .f32 := broadcastInDim S256x256 ![] bcast_S_S256x256 main_cst_32
  let main_v86 : IVec S256x256 1 := cmpf .olt main_v84 main_v85
  let main_c_33 : IVec S_ 1 := constantI S_ 1 1#1
  let main_v87 : IVec S_ 1 := (fun x v => Host.reduce IntOp.andi x v reducesTo_S256x256_S_d0_1 h_S_) main_v86 main_c_33
  let main_v88 : IVec S_ 1 := andi main_v83 main_v87
  let main_v89 : FVec F S256 .f32 := Host.absf main_arg19
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x256 .f32 := Host.absf main_arg20
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  let main_v99 : FVec F S256x256 .f32 := Host.absf main_arg21
  let main_cst_38 : FVec F S_ .f32 := constant S_ .f32 0x7F800000#32
  let main_v100 : FVec F S256x256 .f32 := broadcastInDim S256x256 ![] bcast_S_S256x256 main_cst_38
  let main_v101 : IVec S256x256 1 := cmpf .olt main_v99 main_v100
  let main_c_39 : IVec S_ 1 := constantI S_ 1 1#1
  fn_part6 (F := F) main_arg22 main_arg23 main_arg24 main_arg25 main_arg26 main_arg27 main_v98 main_v101 main_c_39

def fn_part4 {F : FTy → Type} [FloatOps F] (main_arg15 : FVec F S256x256 .f32) (main_arg16 : FVec F S256 .f32) (main_arg17 : FVec F S256x256 .f32) (main_arg18 : FVec F S256x256 .f32) (main_arg19 : FVec F S256 .f32) (main_arg20 : FVec F S256x256 .f32) (main_arg21 : FVec F S256x256 .f32) (main_arg22 : FVec F S256 .f32) (main_arg23 : FVec F S256x256 .f32) (main_arg24 : FVec F S256x256 .f32) (main_arg25 : FVec F S256 .f32) (main_arg26 : FVec F S32000x256 .f32) (main_arg27 : FVec F S32000 .f32) (main_v63 : IVec S_ 1) (main_v67 : IVec S_ 1) : IVec S_ 1 :=
  let main_v68 : IVec S_ 1 := andi main_v63 main_v67
  let main_v69 : FVec F S256x256 .f32 := Host.absf main_arg15
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg17
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256x256 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_v83 main_v84 main_cst_32

def fn_part3 {F : FTy → Type} [FloatOps F] (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S256x256 .f32) (main_arg19 : FVec F S256 .f32) (main_arg20 : FVec F S256x256 .f32) (main_arg21 : FVec F S256x256 .f32) (main_arg22 : FVec F S256 .f32) (main_arg23 : FVec F S256x256 .f32) (main_arg24 : FVec F S256x256 .f32) (main_arg25 : FVec F S256 .f32) (main_arg26 : FVec F S32000x256 .f32) (main_arg27 : FVec F S32000 .f32) (main_v48 : IVec S_ 1) (main_v49 : FVec F S128x256 .f32) (main_v50 : FVec F S128x256 .f32) : IVec S_ 1 :=
  let main_v51 : IVec S128x256 1 := cmpf .olt main_v49 main_v50
  let main_c_19 : IVec S_ 1 := constantI S_ 1 1#1
  let main_v52 : IVec S_ 1 := (fun x v => Host.reduce IntOp.andi x v reducesTo_S128x256_S_d0_1 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg14
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg15 main_arg16 main_arg17 main_arg18 main_arg19 main_arg20 main_arg21 main_arg22 main_arg23 main_arg24 main_arg25 main_arg26 main_arg27 main_v63 main_v67

def fn_part2 {F : FTy → Type} [FloatOps F] (main_arg8 : FVec F S128x256 .f32) (main_arg9 : FVec F S256x256 .f32) (main_arg10 : FVec F S256 .f32) (main_arg11 : FVec F S128x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S256x256 .f32) (main_arg19 : FVec F S256 .f32) (main_arg20 : FVec F S256x256 .f32) (main_arg21 : FVec F S256x256 .f32) (main_arg22 : FVec F S256 .f32) (main_arg23 : FVec F S256x256 .f32) (main_arg24 : FVec F S256x256 .f32) (main_arg25 : FVec F S256 .f32) (main_arg26 : FVec F S32000x256 .f32) (main_arg27 : FVec F S32000 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S128x256 .f32 := Host.absf main_arg11
  let main_cst_18 : FVec F S_ .f32 := constant S_ .f32 0x7F800000#32
  let main_v50 : FVec F S128x256 .f32 := broadcastInDim S128x256 ![] bcast_S_S128x256 main_cst_18
  fn_part3 (F := F) main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg5 : FVec F S128x256 .f32) (main_arg6 : FVec F S256x256 .f32) (main_arg7 : FVec F S256 .f32) (main_arg8 : FVec F S128x256 .f32) (main_arg9 : FVec F S256x256 .f32) (main_arg10 : FVec F S256 .f32) (main_arg11 : FVec F S128x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S256x256 .f32) (main_arg19 : FVec F S256 .f32) (main_arg20 : FVec F S256x256 .f32) (main_arg21 : FVec F S256x256 .f32) (main_arg22 : FVec F S256 .f32) (main_arg23 : FVec F S256x256 .f32) (main_arg24 : FVec F S256x256 .f32) (main_arg25 : FVec F S256 .f32) (main_arg26 : FVec F S32000x256 .f32) (main_arg27 : FVec F S32000 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : IVec S256x512 32) (main_arg1 : FVec F S32000x128 .f32) (main_arg2 : FVec F S128x256 .f32) (main_arg3 : FVec F S256x256 .f32) (main_arg4 : FVec F S256 .f32) (main_arg5 : FVec F S128x256 .f32) (main_arg6 : FVec F S256x256 .f32) (main_arg7 : FVec F S256 .f32) (main_arg8 : FVec F S128x256 .f32) (main_arg9 : FVec F S256x256 .f32) (main_arg10 : FVec F S256 .f32) (main_arg11 : FVec F S128x256 .f32) (main_arg12 : FVec F S256x256 .f32) (main_arg13 : FVec F S256 .f32) (main_arg14 : FVec F S256x256 .f32) (main_arg15 : FVec F S256x256 .f32) (main_arg16 : FVec F S256 .f32) (main_arg17 : FVec F S256x256 .f32) (main_arg18 : FVec F S256x256 .f32) (main_arg19 : FVec F S256 .f32) (main_arg20 : FVec F S256x256 .f32) (main_arg21 : FVec F S256x256 .f32) (main_arg22 : FVec F S256 .f32) (main_arg23 : FVec F S256x256 .f32) (main_arg24 : FVec F S256x256 .f32) (main_arg25 : FVec F S256 .f32) (main_arg26 : FVec F S32000x256 .f32) (main_arg27 : FVec F S32000 .f32) : IVec S_ 1 :=
  let main_v0 : FVec F S32000x128 .f32 := Host.absf main_arg1
  let main_cst : FVec F S_ .f32 := constant S_ .f32 0x7F800000#32
  let main_v1 : FVec F S32000x128 .f32 := broadcastInDim S32000x128 ![] bcast_S_S32000x128 main_cst
  let main_v2 : IVec S32000x128 1 := cmpf .olt main_v0 main_v1
  let main_c : IVec S_ 1 := constantI S_ 1 1#1
  let main_v3 : IVec S_ 1 := (fun x v => Host.reduce IntOp.andi x v reducesTo_S32000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S256x512 : Shape := ⟨2, ![256, 512]⟩
abbrev S32000x128 : Shape := ⟨2, ![32000, 128]⟩
abbrev S128x256 : Shape := ⟨2, ![128, 256]⟩
abbrev S256x256 : Shape := ⟨2, ![256, 256]⟩
abbrev S256 : Shape := ⟨1, ![256]⟩
abbrev S32000x256 : Shape := ⟨2, ![32000, 256]⟩
abbrev S32000 : Shape := ⟨1, ![32000]⟩
abbrev S256x1 : Shape := ⟨2, ![256, 1]⟩
abbrev S_ : Shape := ⟨0, ![]⟩
abbrev S256x128 : Shape := ⟨2, ![256, 128]⟩
abbrev S1x256 : Shape := ⟨2, ![1, 256]⟩
abbrev S1x32000 : Shape := ⟨2, ![1, 32000]⟩
abbrev S256x32000 : Shape := ⟨2, ![256, 32000]⟩
abbrev S3200x256 : Shape := ⟨2, ![3200, 256]⟩
abbrev S1x3200 : Shape := ⟨2, ![1, 3200]⟩
abbrev S256x3200 : Shape := ⟨2, ![256, 3200]⟩

abbrev nBuf : Space → Nat
  | .hbm => 44
  | .vmem => 13
  | .smem => 0
  | _ => 0

abbrev bufTy : (tb : Table) → Fin (tcTables nBuf tb) → BufTy
  | .hbm, ⟨0, _⟩ => ⟨S256x512, .i32⟩
  | .hbm, ⟨1, _⟩ => ⟨S32000x128, .f32⟩
  | .hbm, ⟨2, _⟩ => ⟨S128x256, .f32⟩
  | .hbm, ⟨3, _⟩ => ⟨S256x256, .f32⟩
  | .hbm, ⟨4, _⟩ => ⟨S256, .f32⟩
  | .hbm, ⟨5, _⟩ => ⟨S128x256, .f32⟩
  | .hbm, ⟨6, _⟩ => ⟨S256x256, .f32⟩
  | .hbm, ⟨7, _⟩ => ⟨S256, .f32⟩
  | .hbm, ⟨8, _⟩ => ⟨S128x256, .f32⟩
  | .hbm, ⟨9, _⟩ => ⟨S256x256, .f32⟩
  | .hbm, ⟨10, _⟩ => ⟨S256, .f32⟩
  | .hbm, ⟨11, _⟩ => ⟨S128x256, .f32⟩
  | .hbm, ⟨12, _⟩ => ⟨S256x256, .f32⟩
  | .hbm, ⟨13, _⟩ => ⟨S256, .f32⟩
  | .hbm, ⟨14, _⟩ => ⟨S256x256, .f32⟩
  | .hbm, ⟨15, _⟩ => ⟨S256x256, .f32⟩
  | .hbm, ⟨16, _⟩ => ⟨S256, .f32⟩
  | .hbm, ⟨17, _⟩ => ⟨S256x256, .f32⟩
  | .hbm, ⟨18, _⟩ => ⟨S256x256, .f32⟩
  | .hbm, ⟨19, _⟩ => ⟨S256, .f32⟩
  | .hbm, ⟨20, _⟩ => ⟨S256x256, .f32⟩
  | .hbm, ⟨21, _⟩ => ⟨S256x256, .f32⟩
  | .hbm, ⟨22, _⟩ => ⟨S256, .f32⟩
  | .hbm, ⟨23, _⟩ => ⟨S256x256, .f32⟩
  | .hbm, ⟨24, _⟩ => ⟨S256x256, .f32⟩
  | .hbm, ⟨25, _⟩ => ⟨S256, .f32⟩
  | .hbm, ⟨26, _⟩ => ⟨S32000x256, .f32⟩
  | .hbm, ⟨27, _⟩ => ⟨S32000, .f32⟩
  | .hbm, ⟨28, _⟩ => ⟨S256x1, .i32⟩
  | .hbm, ⟨29, _⟩ => ⟨S256, .i32⟩
  | .hbm, ⟨30, _⟩ => ⟨S_, .i32⟩
  | .hbm, ⟨31, _⟩ => ⟨S256, .i32⟩
  | .hbm, ⟨32, _⟩ => ⟨S256, .i1⟩
  | .hbm, ⟨33, _⟩ => ⟨S_, .i32⟩
  | .hbm, ⟨34, _⟩ => ⟨S256, .i32⟩
  | .hbm, ⟨35, _⟩ => ⟨S256, .i32⟩
  | .hbm, ⟨36, _⟩ => ⟨S256, .i32⟩
  | .hbm, ⟨37, _⟩ => ⟨S256x1, .i32⟩
  | .hbm, ⟨38, _⟩ => ⟨S256x128, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S1x32000, .f32⟩
  | .hbm, ⟨43, _⟩ => ⟨S256x32000, .f32⟩
  | .local _ .vmem, ⟨0, _⟩ => ⟨S256x128, .f32⟩
  | .local _ .vmem, ⟨1, _⟩ => ⟨S128x256, .f32⟩
  | .local _ .vmem, ⟨2, _⟩ => ⟨S1x256, .f32⟩
  | .local _ .vmem, ⟨3, _⟩ => ⟨S128x256, .f32⟩
  | .local _ .vmem, ⟨4, _⟩ => ⟨S1x256, .f32⟩
  | .local _ .vmem, ⟨5, _⟩ => ⟨S128x256, .f32⟩
  | .local _ .vmem, ⟨6, _⟩ => ⟨S1x256, .f32⟩
  | .local _ .vmem, ⟨7, _⟩ => ⟨S3200x256, .f32⟩
  | .local _ .vmem, ⟨8, _⟩ => ⟨S3200x256, .f32⟩
  | .local _ .vmem, ⟨9, _⟩ => ⟨S1x3200, .f32⟩
  | .local _ .vmem, ⟨10, _⟩ => ⟨S1x3200, .f32⟩
  | .local _ .vmem, ⟨11, _⟩ => ⟨S256x3200, .f32⟩
  | .local _ .vmem, ⟨12, _⟩ => ⟨S256x3200, .f32⟩
  | _, _ => ⟨S256x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_c : Ref sig .tc := ⟨.hbm, 30, rfl⟩
abbrev main_v2 : Ref sig .tc := ⟨.hbm, 31, rfl⟩
abbrev main_v3 : Ref sig .tc := ⟨.hbm, 32, rfl⟩
abbrev main_c_0 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem7_1 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3200x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3200 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3200 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S256x512_S256x1_0_511 : S256x512.Slices ![0, 511] S256x1
  shapeCasts_S256x1_S256 : S256x1.ShapeCasts S256
  bcast_S_S256 : S_.BroadcastsInDim S256 (![] : Fin 0 → Fin S256.rank)
  bcast_S256_S256x1_0 : S256.BroadcastsInDim S256x1 (![0] : Fin 1 → Fin S256x1.rank)
  shapeCasts_S256_S1x256 : S256.ShapeCasts S1x256
  shapeCasts_S32000_S1x32000 : S32000.ShapeCasts S1x32000
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  bitsLt_bf16_f32 : FTy.bits .bf16 < FTy.bits .f32
  inb_S3200x256_S3200x256_0_0 : ∀ a, (![0, 0] : Fin 2 → Nat) a + S3200x256.size a ≤ S3200x256.size a
  h_S3200x256 : 0 < S3200x256.numel
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S256x3200 : S1x3200.Broadcasts S256x3200
  inb_S256x3200_S256x3200_0_0 : ∀ a, (![0, 0] : Fin 2 → Nat) a + S256x3200.size a ≤ S256x3200.size a
  h_S256x3200 : 0 < S256x3200.numel
  gather_S32000x128_S256x1_S256x128_1_0_n_n_0_1_1128_wf : GatherDims.WF S32000x128 S256x1 S256x128 [1] [0] [] [0] [] 1 ![1, 128]
  dot_S256x128_S128x256_S256x256_1_0_0_1_n_n_wf : DotDims.WF S256x128 S128x256 S256x256 [1] [0] [0] [1] [] []
  dot_S256x256_S3200x256_S256x3200_1_1_0_0_n_n_wf : DotDims.WF S256x256 S3200x256 S256x3200 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S256x128.size a
  hwx0_0 : ∀ i : grid0.Coords, EltTy.bits .f32 = 32 ∨ (Rect.block (s := S256x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3200x256.size a ≤ S32000x256.size a
  hwx0_7 : ∀ i : grid0.Coords, EltTy.bits .f32 = 32 ∨ (Rect.block (s := S32000x256) S3200x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x3200.size a ≤ S1x32000.size a
  hwx0_8 : ∀ i : grid0.Coords, EltTy.bits .f32 = 32 ∨ (Rect.block (s := S1x32000) S1x3200.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x3200.size a ≤ S256x32000.size a
  hwx0_9 : ∀ i : grid0.Coords, EltTy.bits .f32 = 32 ∨ (Rect.block (s := S256x32000) S256x3200.size (cc0_transform_9 i) (hinb0_9 i)).WholeWords (EltTy.packing .f32)

variable [Facts₀]

def gather_S32000x128_S256x1_S256x128_1_0_n_n_0_1_1128 : GatherDims S32000x128 S256x1 S256x128 where
  offsetDims := [1]
  collapsedSliceDims := [0]
  operandBatchingDims := []
  startIndicesBatchingDims := []
  startIndexMap := [0]
  indexVectorDim := 1
  sliceSizes := ![1, 128]
  wf := gather_S32000x128_S256x1_S256x128_1_0_n_n_0_1_1128_wf
def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf
def dot_S256x256_S3200x256_S256x3200_1_1_0_0_n_n : DotDims S256x256 S3200x256 S256x3200 where
  lhsContracting := [1]
  rhsContracting := [1]
  lhsNonContracting := [0]
  rhsNonContracting := [0]
  lhsBatch := []
  rhsBatch := []
  wf := dot_S256x256_S3200x256_S256x3200_1_1_0_0_n_n_wf

abbrev win0_0 : Pipeline.Window sig grid0 :=
  Pipeline.Window.ofSpec (Memref.whole main_v8) S256x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg8) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg26) S3200x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x3200.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v13) S256x3200.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S256x512 : Shape := ⟨2, ![256, 512]⟩
abbrev S32000x128 : Shape := ⟨2, ![32000, 128]⟩
abbrev S128x256 : Shape := ⟨2, ![128, 256]⟩
abbrev S256x256 : Shape := ⟨2, ![256, 256]⟩
abbrev S256 : Shape := ⟨1, ![256]⟩
abbrev S32000x256 : Shape := ⟨2, ![32000, 256]⟩
abbrev S32000 : Shape := ⟨1, ![32000]⟩
abbrev S_ : Shape := ⟨0, ![]⟩
abbrev S256x512x1 : Shape := ⟨3, ![256, 512, 1]⟩
abbrev S256x512x128 : Shape := ⟨3, ![256, 512, 128]⟩
abbrev S256x512x256 : Shape := ⟨3, ![256, 512, 256]⟩
abbrev S1x1x256 : Shape := ⟨3, ![1, 1, 256]⟩
abbrev S512x256x256 : Shape := ⟨3, ![512, 256, 256]⟩
abbrev S1x256x256 : Shape := ⟨3, ![1, 256, 256]⟩
abbrev S1x256 : Shape := ⟨2, ![1, 256]⟩
abbrev S256x1x256 : Shape := ⟨3, ![256, 1, 256]⟩
abbrev S256x32000 : Shape := ⟨2, ![256, 32000]⟩
abbrev S1x32000 : Shape := ⟨2, ![1, 32000]⟩

abbrev nBuf : Space → Nat
  | .hbm => 158
  | .vmem => 0
  | .smem => 0
  | _ => 0

abbrev hbmTy0_0 (i : Nat) : BufTy := match i % 128 with
  | 0 => ⟨S256x512, .i32⟩
  | 1 => ⟨S32000x128, .f32⟩
  | 2 => ⟨S128x256, .f32⟩
  | 3 => ⟨S256x256, .f32⟩
  | 4 => ⟨S256, .f32⟩
  | 5 => ⟨S128x256, .f32⟩
  | 6 => ⟨S256x256, .f32⟩
  | 7 => ⟨S256, .f32⟩
  | 8 => ⟨S128x256, .f32⟩
  | 9 => ⟨S256x256, .f32⟩
  | 10 => ⟨S256, .f32⟩
  | 11 => ⟨S128x256, .f32⟩
  | 12 => ⟨S256x256, .f32⟩
  | 13 => ⟨S256, .f32⟩
  | 14 => ⟨S256x256, .f32⟩
  | 15 => ⟨S256x256, .f32⟩
  | 16 => ⟨S256, .f32⟩
  | 17 => ⟨S256x256, .f32⟩
  | 18 => ⟨S256x256, .f32⟩
  | 19 => ⟨S256, .f32⟩
  | 20 => ⟨S256x256, .f32⟩
  | 21 => ⟨S256x256, .f32⟩
  | 22 => ⟨S256, .f32⟩
  | 23 => ⟨S256x256, .f32⟩
  | 24 => ⟨S256x256, .f32⟩
  | 25 => ⟨S256, .f32⟩
  | 26 => ⟨S32000x256, .f32⟩
  | 27 => ⟨S32000, .f32⟩
  | 28 => ⟨S_, .i32⟩
  | 29 => ⟨S256x512, .i32⟩
  | 30 => ⟨S256x512, .i1⟩
  | 31 => ⟨S_, .i32⟩
  | 32 => ⟨S256x512, .i32⟩
  | 33 => ⟨S256x512, .i32⟩
  | 34 => ⟨S256x512, .i32⟩
  | 35 => ⟨S256x512x1, .i32⟩
  | 36 => ⟨S256x512x128, .f32⟩
  | 37 => ⟨S256x512x256, .f32⟩
  | 38 => ⟨S1x1x256, .f32⟩
  | 39 => ⟨S256x512x256, .f32⟩
  | 40 => ⟨S256x512x256, .f32⟩
  | 41 => ⟨S256x512x256, .f32⟩
  | 42 => ⟨S256x512x256, .f32⟩
  | 43 => ⟨S_, .f32⟩
  | 44 => ⟨S256x512x256, .f32⟩
  | 45 => ⟨S256x512x256, .f32⟩
  | 46 => ⟨S_, .f32⟩
  | 47 => ⟨S256x512x256, .f32⟩
  | 48 => ⟨S256x512x256, .f32⟩
  | 49 => ⟨S256x512x256, .f32⟩
  | 50 => ⟨S1x1x256, .f32⟩
  | 51 => ⟨S256x512x256, .f32⟩
  | 52 => ⟨S256x512x256, .f32⟩
  | 53 => ⟨S256x512x256, .f32⟩
  | 54 => ⟨S256x512x256, .f32⟩
  | 55 => ⟨S1x1x256, .f32⟩
  | 56 => ⟨S256x512x256, .f32⟩
  | 57 => ⟨S256x512x256, .f32⟩
  | 58 => ⟨S256x512x256, .f32⟩
  | 59 => ⟨S256x512x256, .f32⟩
  | 60 => ⟨S_, .f32⟩
  | 61 => ⟨S256x512x256, .f32⟩
  | 62 => ⟨S256x512x256, .f32⟩
  | 63 => ⟨S_, .f32⟩
  | 64 => ⟨S256x512x256, .f32⟩
  | 65 => ⟨S256x512x256, .f32⟩
  | 66 => ⟨S256x512x256, .f32⟩
  | 67 => ⟨S256x512x256, .f32⟩
  | 68 => ⟨S256x512x256, .f32⟩
  | 69 => ⟨S_, .f32⟩
  | 70 => ⟨S256x256, .f32⟩
  | 71 => ⟨S512x256x256, .f32⟩
  | 72 => ⟨S_, .i32⟩
  | 73 => ⟨S512x256x256, .f32⟩
  | 74 => ⟨S256x256, .f32⟩
  | 75 => ⟨S256x256, .f32⟩
  | 76 => ⟨S256, .f32⟩
  | 77 => ⟨S256x256, .f32⟩
  | 78 => ⟨S256x256, .f32⟩
  | 79 => ⟨S256, .f32⟩
  | 80 => ⟨S256x256, .f32⟩
  | 81 => ⟨S256x256, .f32⟩
  | 82 => ⟨S256, .f32⟩
  | 83 => ⟨S256x256, .f32⟩
  | 84 => ⟨S256x256, .f32⟩
  | 85 => ⟨S256, .f32⟩
  | 86 => ⟨S_, .i32⟩
  | 87 => ⟨S256x256, .f32⟩
  | 88 => ⟨S256x256, .f32⟩
  | 89 => ⟨S_, .i32⟩
  | 90 => ⟨S_, .i1⟩
  | 91 => ⟨S_, .i32⟩
  | 92 => ⟨S_, .i32⟩
  | 93 => ⟨S1x256x256, .f32⟩
  | 94 => ⟨S256x256, .f32⟩
  | 95 => ⟨S256x256, .f32⟩
  | 96 => ⟨S256x256, .f32⟩
  | 97 => ⟨S256x256, .f32⟩
  | 98 => ⟨S1x256, .f32⟩
  | 99 => ⟨S256x256, .f32⟩
  | 100 => ⟨S256x256, .f32⟩
  | 101 => ⟨S256x256, .f32⟩
  | 102 => ⟨S256x256, .f32⟩
  | 103 => ⟨S_, .f32⟩
  | 104 => ⟨S256x256, .f32⟩
  | 105 => ⟨S256x256, .f32⟩
  | 106 => ⟨S_, .f32⟩
  | 107 => ⟨S256x256, .f32⟩
  | 108 => ⟨S256x256, .f32⟩
  | 109 => ⟨S256x256, .f32⟩
  | 110 => ⟨S256x256, .f32⟩
  | 111 => ⟨S256x256, .f32⟩
  | 112 => ⟨S1x256, .f32⟩
  | 113 => ⟨S256x256, .f32⟩
  | 114 => ⟨S256x256, .f32⟩
  | 115 => ⟨S256x256, .f32⟩
  | 116 => ⟨S256x256, .f32⟩
  | 117 => ⟨S256x256, .f32⟩
  | 118 => ⟨S256x256, .f32⟩
  | 119 => ⟨S1x256, .f32⟩
  | 120 => ⟨S256x256, .f32⟩
  | 121 => ⟨S256x256, .f32⟩
  | 122 => ⟨S256x256, .f32⟩
  | 123 => ⟨S256x256, .f32⟩
  | 124 => ⟨S_, .f32⟩
  | 125 => ⟨S256x256, .f32⟩
  | 126 => ⟨S256x256, .f32⟩
  | 127 => ⟨S_, .f32⟩
  | _ => ⟨S256x512, .i32⟩

abbrev hbmTy0_1 (i : Nat) : BufTy := match i % 128 with
  | 0 => ⟨S256x256, .f32⟩
  | 1 => ⟨S256x256, .f32⟩
  | 2 => ⟨S256x256, .f32⟩
  | 3 => ⟨S256x256, .f32⟩
  | 4 => ⟨S256x256, .f32⟩
  | 5 => ⟨S1x256, .f32⟩
  | 6 => ⟨S256x256, .f32⟩
  | 7 => ⟨S256x256, .f32⟩
  | 8 => ⟨S256x256, .f32⟩
  | 9 => ⟨S256x256, .f32⟩
  | 10 => ⟨S_, .f32⟩
  | 11 => ⟨S256x256, .f32⟩
  | 12 => ⟨S256x256, .f32⟩
  | 13 => ⟨S_, .f32⟩
  | 14 => ⟨S256x256, .f32⟩
  | 15 => ⟨S256x256, .f32⟩
  | 16 => ⟨S256x256, .f32⟩
  | 17 => ⟨S256x256, .f32⟩
  | 18 => ⟨S256x256, .f32⟩
  | 19 => ⟨S256x256, .f32⟩
  | 20 => ⟨S256x256, .f32⟩
  | 21 => ⟨S_, .i32⟩
  | 22 => ⟨S_, .i32⟩
  | 23 => ⟨S256x1x256, .f32⟩
  | 24 => ⟨S256x256, .f32⟩
  | 25 => ⟨S256x32000, .f32⟩
  | 26 => ⟨S256x32000, .f32⟩
  | 27 => ⟨S1x32000, .f32⟩
  | 28 => ⟨S256x32000, .f32⟩
  | 29 => ⟨S256x32000, .f32⟩
  | _ => ⟨S256x512, .i32⟩

abbrev hbmTy (i : Nat) : BufTy := match i / 128 with
  | 0 => hbmTy0_0 i
  | 1 => hbmTy0_1 i
  | _ => ⟨S256x512, .i32⟩

abbrev bufTy : (tb : Table) → Fin (tcTables nBuf tb) → BufTy
  | .hbm, ⟨i, _⟩ => hbmTy i
  | _, _ => ⟨S256x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_c : Ref sig .tc := ⟨.hbm, 28, rfl⟩
abbrev main_v0 : Ref sig .tc := ⟨.hbm, 29, rfl⟩
abbrev main_v1 : Ref sig .tc := ⟨.hbm, 30, rfl⟩
abbrev main_c_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst : Ref sig .tc := ⟨.hbm, 43, rfl⟩
abbrev main_v13 : Ref sig .tc := ⟨.hbm, 44, rfl⟩
abbrev main_v14 : Ref sig .tc := ⟨.hbm, 45, rfl⟩
abbrev main_cst_1 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_2 : Ref sig .tc := ⟨.hbm, 60, rfl⟩
abbrev main_v28 : Ref sig .tc := ⟨.hbm, 61, rfl⟩
abbrev main_v29 : Ref sig .tc := ⟨.hbm, 62, rfl⟩
abbrev main_cst_3 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_4 : Ref sig .tc := ⟨.hbm, 69, rfl⟩
abbrev main_v35 : Ref sig .tc := ⟨.hbm, 70, rfl⟩
abbrev main_v36 : Ref sig .tc := ⟨.hbm, 71, rfl⟩
abbrev main_c_5 : Ref sig .tc := ⟨.hbm, 72, rfl⟩
abbrev main_v37_0 : Ref sig .tc := ⟨.hbm, 73, rfl⟩
abbrev main_v37_1 : Ref sig .tc := ⟨.hbm, 74, rfl⟩
abbrev main_v37_2 : Ref sig .tc := ⟨.hbm, 75, rfl⟩
abbrev main_v37_3 : Ref sig .tc := ⟨.hbm, 76, rfl⟩
abbrev main_v37_4 : Ref sig .tc := ⟨.hbm, 77, rfl⟩
abbrev main_v37_5 : Ref sig .tc := ⟨.hbm, 78, rfl⟩
abbrev main_v37_6 : Ref sig .tc := ⟨.hbm, 79, rfl⟩
abbrev main_v37_7 : Ref sig .tc := ⟨.hbm, 80, rfl⟩
abbrev main_v37_8 : Ref sig .tc := ⟨.hbm, 81, rfl⟩
abbrev main_v37_9 : Ref sig .tc := ⟨.hbm, 82, rfl⟩
abbrev main_v37_10 : Ref sig .tc := ⟨.hbm, 83, rfl⟩
abbrev main_v37_11 : Ref sig .tc := ⟨.hbm, 84, rfl⟩
abbrev main_v37_12 : Ref sig .tc := ⟨.hbm, 85, rfl⟩
abbrev main_v37_13 : Ref sig .tc := ⟨.hbm, 86, rfl⟩
abbrev main_v37_14 : Ref sig .tc := ⟨.hbm, 87, rfl⟩
abbrev main_v37_15 : Ref sig .tc := ⟨.hbm, 88, rfl⟩
abbrev main_while0c_c_21 : Ref sig .tc := ⟨.hbm, 89, rfl⟩
abbrev main_while0c_v45 : Ref sig .tc := ⟨.hbm, 90, rfl⟩
abbrev main_while0b_call0_c : Ref sig .tc := ⟨.hbm, 91, rfl⟩
abbrev main_while0b_call0_c_0 : Ref sig .tc := ⟨.hbm, 92, rfl⟩
abbrev main_while0b_call0_v0 : Ref sig .tc := ⟨.hbm, 93, rfl⟩
abbrev main_while0b_v45 : Ref sig .tc := ⟨.hbm, 94, rfl⟩
abbrev main_while0b_call1_v0 : Ref sig .tc := ⟨.hbm, 95, rfl⟩
abbrev main_while0b_call1_v1 : Ref sig .tc := ⟨.hbm, 96, rfl⟩
abbrev main_while0b_call1_v2 : Ref sig .tc := ⟨.hbm, 97, rfl⟩
abbrev main_while0b_call1_v3 : Ref sig .tc := ⟨.hbm, 98, rfl⟩
abbrev main_while0b_call1_v4 : Ref sig .tc := ⟨.hbm, 99, rfl⟩
abbrev main_while0b_call1_v5 : Ref sig .tc := ⟨.hbm, 100, rfl⟩
abbrev main_while0b_call1_v6 : Ref sig .tc := ⟨.hbm, 101, rfl⟩
abbrev main_while0b_call1_v7 : Ref sig .tc := ⟨.hbm, 102, rfl⟩
abbrev main_while0b_call1_cst : Ref sig .tc := ⟨.hbm, 103, rfl⟩
abbrev main_while0b_call1_v8 : Ref sig .tc := ⟨.hbm, 104, rfl⟩
abbrev main_while0b_call1_v9 : Ref sig .tc := ⟨.hbm, 105, rfl⟩
abbrev main_while0b_call1_cst_0 : Ref sig .tc := ⟨.hbm, 106, rfl⟩
abbrev main_while0b_call1_v10 : Ref sig .tc := ⟨.hbm, 107, rfl⟩
abbrev main_while0b_call1_v11 : Ref sig .tc := ⟨.hbm, 108, rfl⟩
abbrev main_while0b_call1_v12 : Ref sig .tc := ⟨.hbm, 109, rfl⟩
abbrev main_while0b_call1_v13 : Ref sig .tc := ⟨.hbm, 110, rfl⟩
abbrev main_while0b_call1_v14 : Ref sig .tc := ⟨.hbm, 111, rfl⟩
abbrev main_while0b_call1_v15 : Ref sig .tc := ⟨.hbm, 112, rfl⟩
abbrev main_while0b_call1_v16 : Ref sig .tc := ⟨.hbm, 113, rfl⟩
abbrev main_while0b_call1_v17 : Ref sig .tc := ⟨.hbm, 114, rfl⟩
abbrev main_while0b_call1_v18 : Ref sig .tc := ⟨.hbm, 115, rfl⟩
abbrev main_while0b_call1_v19 : Ref sig .tc := ⟨.hbm, 116, rfl⟩
abbrev main_while0b_call1_v20 : Ref sig .tc := ⟨.hbm, 117, rfl⟩
abbrev main_while0b_call1_v21 : Ref sig .tc := ⟨.hbm, 118, rfl⟩
abbrev main_while0b_call1_v22 : Ref sig .tc := ⟨.hbm, 119, rfl⟩
abbrev main_while0b_call1_v23 : Ref sig .tc := ⟨.hbm, 120, rfl⟩
abbrev main_while0b_call1_v24 : Ref sig .tc := ⟨.hbm, 121, rfl⟩
abbrev main_while0b_call1_v25 : Ref sig .tc := ⟨.hbm, 122, rfl⟩
abbrev main_while0b_call1_v26 : Ref sig .tc := ⟨.hbm, 123, rfl⟩
abbrev main_while0b_call1_cst_1 : Ref sig .tc := ⟨.hbm, 124, rfl⟩
abbrev main_while0b_call1_v27 : Ref sig .tc := ⟨.hbm, 125, rfl⟩
abbrev main_while0b_call1_v28 : Ref sig .tc := ⟨.hbm, 126, rfl⟩
abbrev main_while0b_call1_cst_2 : Ref sig .tc := ⟨.hbm, 127, rfl⟩
abbrev main_while0b_call1_v29 : Ref sig .tc := ⟨.hbm, 128, rfl⟩
abbrev main_while0b_call1_v30 : Ref sig .tc := ⟨.hbm, 129, rfl⟩
abbrev main_while0b_call1_v31 : Ref sig .tc := ⟨.hbm, 130, rfl⟩
abbrev main_while0b_call1_v32 : Ref sig .tc := ⟨.hbm, 131, rfl⟩
abbrev main_while0b_call1_v33 : Ref sig .tc := ⟨.hbm, 132, rfl⟩
abbrev main_while0b_call1_v34 : Ref sig .tc := ⟨.hbm, 133, rfl⟩
abbrev main_while0b_call1_v35 : Ref sig .tc := ⟨.hbm, 134, rfl⟩
abbrev main_while0b_call1_v36 : Ref sig .tc := ⟨.hbm, 135, rfl⟩
abbrev main_while0b_call1_v37 : Ref sig .tc := ⟨.hbm, 136, rfl⟩
abbrev main_while0b_call1_v38 : Ref sig .tc := ⟨.hbm, 137, rfl⟩
abbrev main_while0b_call1_cst_3 : Ref sig .tc := ⟨.hbm, 138, rfl⟩
abbrev main_while0b_call1_v39 : Ref sig .tc := ⟨.hbm, 139, rfl⟩
abbrev main_while0b_call1_v40 : Ref sig .tc := ⟨.hbm, 140, rfl⟩
abbrev main_while0b_call1_cst_4 : Ref sig .tc := ⟨.hbm, 141, rfl⟩
abbrev main_while0b_call1_v41 : Ref sig .tc := ⟨.hbm, 142, rfl⟩
abbrev main_while0b_call1_v42 : Ref sig .tc := ⟨.hbm, 143, rfl⟩
abbrev main_while0b_call1_v43 : Ref sig .tc := ⟨.hbm, 144, rfl⟩
abbrev main_while0b_call1_v44 : Ref sig .tc := ⟨.hbm, 145, rfl⟩
abbrev main_while0b_v46_1 : Ref sig .tc := ⟨.hbm, 146, rfl⟩
abbrev main_while0b_call1_v46 : Ref sig .tc := ⟨.hbm, 147, rfl⟩
abbrev main_while0b_v46_0 : Ref sig .tc := ⟨.hbm, 148, rfl⟩
abbrev main_while0b_c_21 : Ref sig .tc := ⟨.hbm, 149, rfl⟩
abbrev main_while0b_v47 : Ref sig .tc := ⟨.hbm, 150, rfl⟩
abbrev main_v38 : Ref sig .tc := ⟨.hbm, 151, rfl⟩
abbrev main_v39 : Ref sig .tc := ⟨.hbm, 152, rfl⟩
abbrev main_v40 : Ref sig .tc := ⟨.hbm, 153, rfl⟩
abbrev main_v41 : Ref sig .tc := ⟨.hbm, 154, rfl⟩
abbrev main_v42 : Ref sig .tc := ⟨.hbm, 155, rfl⟩
abbrev main_v43 : Ref sig .tc := ⟨.hbm, 156, rfl⟩
abbrev main_v44 : Ref sig .tc := ⟨.hbm, 157, rfl⟩

abbrev nD : Nat := 1
abbrev τ : Topo := Topo.v7x

variable {F : FTy → Type} [FloatOps F]

abbrev main_while0_count : Scf.Loop 32 := ⟨0#32, 512#32, 1#32⟩

class Facts₀ : Prop where
  bcast_S_S256x512 : S_.BroadcastsInDim S256x512 (![] : Fin 0 → Fin S256x512.rank)
  bcast_S256x512_S256x512x1_0_1 : S256x512.BroadcastsInDim S256x512x1 (![0, 1] : Fin 2 → Fin S256x512x1.rank)
  bcast_S256_S1x1x256_2 : S256.BroadcastsInDim S1x1x256 (![2] : Fin 1 → Fin S1x1x256.rank)
  bcast_S1x1x256_S256x512x256_0_1_2 : S1x1x256.BroadcastsInDim S256x512x256 (![0, 1, 2] : Fin 3 → Fin S256x512x256.rank)
  bcast_S_S256x512x256 : S_.BroadcastsInDim S256x512x256 (![] : Fin 0 → Fin S256x512x256.rank)
  bcast_S_S256x256 : S_.BroadcastsInDim S256x256 (![] : Fin 0 → Fin S256x256.rank)
  transposes_S256x512x256_S512x256x256_1_0_2 : S256x512x256.Transposes [1, 0, 2] S512x256x256
  sliceFits_S512x256x256_S1x256x256 : S512x256x256.Slices (fun _ => 0) S1x256x256
  h_S_ : 0 < S_.numel
  shapeCasts_S1x256x256_S256x256 : S1x256x256.ShapeCasts S256x256
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  slices_S256x512x256_S256x1x256_0_511_0 : S256x512x256.Slices ![0, 511, 0] S256x1x256
  shapeCasts_S256x1x256_S256x256 : S256x1x256.ShapeCasts S256x256
  transposes_S32000x256_S256x32000_1_0 : S32000x256.Transposes [1, 0] S256x32000
  bcast_S32000_S1x32000_1 : S32000.BroadcastsInDim S1x32000 (![1] : Fin 1 → Fin S1x32000.rank)
  bcast_S1x32000_S256x32000_0_1 : S1x32000.BroadcastsInDim S256x32000 (![0, 1] : Fin 2 → Fin S256x32000.rank)
  gather_S32000x128_S256x512x1_S256x512x128_2_0_n_n_0_2_1128_wf : GatherDims.WF S32000x128 S256x512x1 S256x512x128 [2] [0] [] [0] [] 2 ![1, 128]
  dot_S256x512x128_S128x256_S256x512x256_2_0_01_1_n_n_wf : DotDims.WF S256x512x128 S128x256 S256x512x256 [2] [0] [0, 1] [1] [] []
  dot_S256x256_S256x256_S256x256_1_0_0_1_n_n_wf : DotDims.WF S256x256 S256x256 S256x256 [1] [0] [0] [1] [] []
  dot_S256x256_S256x32000_S256x32000_1_0_0_1_n_n_wf : DotDims.WF S256x256 S256x32000 S256x32000 [1] [0] [0] [1] [] []
  main_while0_ok : main_while0_count.OK

variable [Facts₀]

def gather_S32000x128_S256x512x1_S256x512x128_2_0_n_n_0_2_1128 : GatherDims S32000x128 S256x512x1 S256x512x128 where
  offsetDims := [2]
  collapsedSliceDims := [0]
  operandBatchingDims := []
  startIndicesBatchingDims := []
  startIndexMap := [0]
  indexVectorDim := 2
  sliceSizes := ![1, 128]
  wf := gather_S32000x128_S256x512x1_S256x512x128_2_0_n_n_0_2_1128_wf
def dot_S256x512x128_S128x256_S256x512x256_2_0_01_1_n_n : DotDims S256x512x128 S128x256 S256x512x256 where
  lhsContracting := [2]
  rhsContracting := [0]
  lhsNonContracting := [0, 1]
  rhsNonContracting := [1]
  lhsBatch := []
  rhsBatch := []
  wf := dot_S256x512x128_S128x256_S256x512x256_2_0_01_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x32000_S256x32000_1_0_0_1_n_n : DotDims S256x256 S256x32000 S256x32000 where
  lhsContracting := [1]
  rhsContracting := [0]
  lhsNonContracting := [0]
  rhsNonContracting := [1]
  lhsBatch := []
  rhsBatch := []
  wf := dot_S256x256_S256x32000_S256x32000_1_0_0_1_n_n_wf

class Facts : Prop extends Facts₀ where

variable [Facts]
-- ==== Proof.Spec.lean ====
/-
  The function both programs compute, on the extended reals.

  A batch of 256 token sequences of length 512 is fed to a two-layer LSTM whose first layer never updates its state,
  so the first layer's output at a time step depends on that step's token alone, and the logits are read off the last
  step. For batch row `b` let `e_b` be the embedding-table row selected by the token `X[b, 511]` (a negative token
  wrapped by 32000, the result clamped into the table as a gather clamps it). With
      gate_U,β (b, h) = Σ_k e_b[k] · U[k, h] + β[h]
  the first layer's hidden state is
      cell (b, h) = σ(gate_o (b, h)) · tanh (σ(gate_i (b, h)) · tanh (gate_c (b, h)))
  and the logits are
      logits (b, n) = Σ_h cell (b, h) · W[n, h] + β_out[n].
  Here σ is the logistic function `1 / (1 + e^(-x))` with its limits `0` and `1` at the infinities, and every sum is a
  finite sum of extended reals: nothing here distributes or cancels, so no finiteness is needed anywhere.
-/
import Idealize.ShloMosaic.PureOps.Ideal
import Idealize.ShloMosaic.Lib.ValueIdx

noncomputable section

namespace LstmLastStep

open Idealize.ShloMosaic Idealize.ShloMosaic.ValueIdx

/-- A signed row number with negatives wrapped once by the table's height: `v + 32000` when `v < 0`, else `v`. -/
def wrap (v : BitVec 32) : BitVec 32 := Scalar.select (IntOp.cmpi .slt v 0#32) (IntOp.addi v 32000#32) v

/-- The table row a start index selects: its signed value clamped into `[0, 31999]`. -/
def rowOf (v : BitVec 32) : Fin 32000 := ⟨min v.toInt.toNat (32000 - 1), by omega⟩

/-- One gate before its nonlinearity, for batch row `b` and hidden unit `h`: `e_b · U[:, h] + β[h]`. -/
def gate (e : Fin 256 → Fin 128 → EReal) (U : Fin 128 → Fin 256 → EReal) (β : Fin 256 → EReal) (b h : Fin 256) : EReal :=
  (∑ k : Fin 128, e b k * U k h) + β h

/-- The first layer's hidden state from a zero state: `σ(o) · tanh (σ(i) · tanh (c))`. -/
def cell (e : Fin 256 → Fin 128 → EReal) (Ui : Fin 128 → Fin 256 → EReal) (βi : Fin 256 → EReal)
    (Uc : Fin 128 → Fin 256 → EReal) (βc : Fin 256 → EReal) (Uo : Fin 128 → Fin 256 → EReal) (βo : Fin 256 → EReal)
    (b h : Fin 256) : EReal :=
  Ideal.logistic (gate e Uo βo b h) * Ideal.tanh (Ideal.logistic (gate e Ui βi b h) * Ideal.tanh (gate e Uc βc b h))

/-- The output layer on a hidden state `H`: `H[b, :] · W[n, :] + β[n]`. -/
def head (H : Fin 256 → Fin 256 → EReal) (W : Fin 32000 → Fin 256 → EReal) (β : Fin 32000 → EReal)
    (b : Fin 256) (n : Fin 32000) : EReal :=
  (∑ h : Fin 256, H b h * W n h) + β n

/-- The embedding of the last token of each sequence. -/
def lastEmb (X : (⟨2, ![256, 512]⟩ : Shape).Idx → BitVec 32) (C : (⟨2, ![32000, 128]⟩ : Shape).Idx → EReal)
    (b : Fin 256) (k : Fin 128) : EReal :=
  C (ix2 (rowOf (wrap (X (ix2 b (511 : Fin 512))))) k)

/-- THE RESULT: the logits of the last time step, as one function of the argument arrays. -/
def logits (X : (⟨2, ![256, 512]⟩ : Shape).Idx → BitVec 32) (C : (⟨2, ![32000, 128]⟩ : Shape).Idx → EReal)
    (Ui : (⟨2, ![128, 256]⟩ : Shape).Idx → EReal) (bi : (⟨1, ![256]⟩ : Shape).Idx → EReal)
    (Uc : (⟨2, ![128, 256]⟩ : Shape).Idx → EReal) (bc : (⟨1, ![256]⟩ : Shape).Idx → EReal)
    (Uo : (⟨2, ![128, 256]⟩ : Shape).Idx → EReal) (bo : (⟨1, ![256]⟩ : Shape).Idx → EReal)
    (W : (⟨2, ![32000, 256]⟩ : Shape).Idx → EReal) (bout : (⟨1, ![32000]⟩ : Shape).Idx → EReal) :
    (⟨2, ![256, 32000]⟩ : Shape).Idx → EReal := fun j =>
  head (cell (lastEmb X C) (fun k h => Ui (ix2 k h)) (fun h => bi (ix1 h)) (fun k h => Uc (ix2 k h)) (fun h => bc (ix1 h))
      (fun k h => Uo (ix2 k h)) (fun h => bo (ix1 h)))
    (fun n h => W (ix2 n h)) (fun n => bout (ix1 n)) (j 0) (j 1)

end LstmLastStep

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibTransposedDot.lean ====
/-
  A matrix product with the right operand contracted on its last axis, read at an index, over the extended reals.

  For the dimension numbers of an `M×K` by `N×K` product (contract the left operand's axis 1 with the right operand's
  axis 1, no batch axis) — a product with the transpose, as a query block against the rows of a key block — the
  contraction index is one coordinate `k < K`, the left operand is read at `(p, k)` and the right one at `(q, k)`. So a
  kernel's matmul into a zero accumulator and a host `dot_general` are, at `(p, q)`, the sum over `k : Fin K` of
  `lhs (p, k) * rhs (q, k)`.
-/
import Idealize.ShloMosaic.PureOps.Ideal
import Idealize.ShloMosaic.PureOps.Ideal.Laws
import Idealize.ShloMosaic.Lib.ValueIdx

noncomputable section

namespace Idealize.ShloMosaic.TransposedDot

open Idealize.ShloMosaic Idealize.ShloMosaic.ValueIdx

/-- The left operand's index at output `(p, q)` and contraction position `k` is `(p, k)`. -/
theorem lhsIdx_tr (M K N : ℕ) (p : Fin M) (q : Fin N) (k : Fin K) :
    (DotDims.transposedRhs M K N).lhsIdx (ix2 p q) ((contrEquiv1 (DotDims.transposedRhs M K N) K rfl rfl).symm k) = ix2 p k := by
  funext a
  apply Fin.ext
  match a with
  | ⟨0, _⟩ => rfl
  | ⟨1, _⟩ => rfl

/-- The right operand's index at output `(p, q)` and contraction position `k` is `(q, k)`. -/
theorem rhsIdx_tr (M K N : ℕ) (p : Fin M) (q : Fin N) (k : Fin K) :
    (DotDims.transposedRhs M K N).rhsIdx (ix2 p q) ((contrEquiv1 (DotDims.transposedRhs M K N) K rfl rfl).symm k) = ix2 q k := by
  funext a
  apply Fin.ext
  match a with
  | ⟨0, _⟩ => rfl
  | ⟨1, _⟩ => rfl

/-- The contraction sum, re-indexed by the one contracted coordinate. -/
theorem sum_tr (M K N : ℕ) (a : (⟨2, ![M, K]⟩ : Shape).Idx → EReal) (w : (⟨2, ![N, K]⟩ : Shape).Idx → EReal)
    (p : Fin M) (q : Fin N) :
    ∑ k : (DotDims.transposedRhs M K N).contr.Idx,
        a ((DotDims.transposedRhs M K N).lhsIdx (ix2 p q) k) * w ((DotDims.transposedRhs M K N).rhsIdx (ix2 p q) k)
      = ∑ k : Fin K, a (ix2 p k) * w (ix2 q k) := by
  rw [← Equiv.sum_comp (contrEquiv1 (DotDims.transposedRhs M K N) K rfl rfl).symm]
  exact Finset.sum_congr rfl fun k _ => by rw [lhsIdx_tr, rhsIdx_tr]

/-- A kernel's matmul into the zero accumulator, the right operand contracted on its last axis, read at `(p, q)`. -/
theorem matmul_zero_apply {M K N : ℕ} {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (p : Fin M) (q : Fin N) :
    FloatOps.matmul d prec lhs rhs (constant ⟨2, ![M, N]⟩ .f32 0x00000000#32) (ix2 p q)
      = ∑ k : Fin K, lhs (ix2 p k) * rhs (ix2 q k) := by
  subst hd
  rw [Ideal.matmul_constant_zero_apply]
  exact sum_tr M K N lhs rhs p q

/-- A host `dot_general` with the same dimension numbers read at `(p, q)`. -/
theorem dotGeneral_apply {M K N : ℕ} {φ₁ φ₂ : FTy} (d : DotDims ⟨2, ![M, K]⟩ ⟨2, ![N, K]⟩ ⟨2, ![M, N]⟩)
    (hd : d = DotDims.transposedRhs M K N) (prec : Option ContractPrecision) (sched : HostSchedule)
    (lhs : FVec Ideal ⟨2, ![M, K]⟩ φ₁) (rhs : FVec Ideal ⟨2, ![N, K]⟩ φ₂) (p : Fin M) (q : Fin N) :
    FloatOps.dotGeneral d prec sched lhs rhs (ix2 p q) = ∑ k : Fin K, lhs (ix2 p k) * rhs (ix2 q k) := by
  subst hd
  rw [Ideal.dotGeneral_apply]
  exact sum_tr M K N lhs rhs p q

end Idealize.ShloMosaic.TransposedDot

end
-- ==== Proof.KernelBody.lean ====
/-
  The kernel's body at one grid point, read at an index.

  The body loads the 256 embeddings, the three gate weights and bias rows, one tile of 3200 rows of the output
  weights and the matching 3200 output biases, and stores one value: the tile of logits. Each gate is a matrix product
  into a zero accumulator plus a bias row spread over the batch; the hidden state is the pointwise cell of the three
  gates; the tile of logits is the product of the hidden state with the transposed weight tile plus the bias row. The
  narrowing of both factors to bf16 before the last product is the identity on the extended reals.
-/
import proofs.«101058_j36258113912845_1_alg».proof.Proof.Gen.KernelIdeal.Skeleton
import proofs.«101058_j36258113912845_1_alg».proof.Proof.Spec
import proofs.«101058_j36258113912845_1_alg».proof.Proof.LibPlainDot
import proofs.«101058_j36258113912845_1_alg».proof.Proof.LibTransposedDot
import Idealize.ShloMosaic.Lib.ValueLayout
import Idealize.ShloMosaic.Lib.Pipeline.Value

noncomputable section

namespace Cert.KernelIdeal.Body

open Cert.KernelIdeal Cert.KernelIdeal.Gen Idealize.ShloMosaic Idealize.ShloMosaic.ValueIdx LstmLastStep

/-- One gate of the embedding block `e` in the kernel's spelling: the product with `U` into a zero accumulator plus the
    bias row `r` spread over the batch. -/
def gateK (e : FVec Ideal S256x128 .f32) (U : FVec Ideal S128x256 .f32) (r : FVec Ideal S1x256 .f32) : FVec Ideal S256x256 .f32 :=
  addf (F := Ideal) (matmul (F := Ideal) dot_S256x128_S128x256_S256x256_1_0_0_1_n_n none (shapeCast S256x128 e shapeCasts_S256x128_S256x128) U
      (constant (F := Ideal) S256x256 .f32 0x00000000#32))
    (broadcastTo S256x256 (shapeCast S1x256 r shapeCasts_S1x256_S1x256) broadcasts_S1x256_S256x256)

/-- A gate at `(b, h)`: the product's sum over the 128 embedding coordinates plus the bias row's entry `h`. -/
theorem gate_apply (e : FVec Ideal S256x128 .f32) (U : FVec Ideal S128x256 .f32) (r : FVec Ideal S1x256 .f32) (b h : Fin 256) :
    gateK e U r (ix2 b h)
      = gate (fun b k => e (ix2 b k)) (fun k h => U (ix2 k h)) (fun h => r (ix2 (0 : Fin 1) h)) b h := by
  unfold gateK
  rw [shapeCast_self, shapeCast_self]
  show FloatOps.matmul (F := Ideal) dot_S256x128_S128x256_S256x256_1_0_0_1_n_n none e U (constant (F := Ideal) S256x256 .f32 0x00000000#32) (ix2 b h)
      + broadcastTo S256x256 r broadcasts_S1x256_S256x256 (ix2 b h) = _
  rw [PlainDot.matmul_zero_apply dot_S256x128_S128x256_S256x256_1_0_0_1_n_n rfl none e U b h, broadcastTo_1b_ab_apply]
  rfl

/-- The hidden state in the kernel's spelling, at `(b, h)`: the cell of the three gates there. -/
theorem cell_apply (e : FVec Ideal S256x128 .f32) (Ui : FVec Ideal S128x256 .f32) (ri : FVec Ideal S1x256 .f32)
    (Uc : FVec Ideal S128x256 .f32) (rc : FVec Ideal S1x256 .f32) (Uo : FVec Ideal S128x256 .f32) (ro : FVec Ideal S1x256 .f32)
    (b h : Fin 256) :
    mulf (F := Ideal) (logistic (gateK e Uo ro)) (tanh (mulf (logistic (gateK e Ui ri)) (tanh (gateK e Uc rc)))) (ix2 b h)
      = cell (fun b k => e (ix2 b k)) (fun k h => Ui (ix2 k h)) (fun h => ri (ix2 (0 : Fin 1) h))
          (fun k h => Uc (ix2 k h)) (fun h => rc (ix2 (0 : Fin 1) h)) (fun k h => Uo (ix2 k h)) (fun h => ro (ix2 (0 : Fin 1) h)) b h := by
  show Ideal.logistic (gateK e Uo ro (ix2 b h)) * Ideal.tanh (Ideal.logistic (gateK e Ui ri (ix2 b h)) * Ideal.tanh (gateK e Uc rc (ix2 b h))) = _
  rw [gate_apply, gate_apply, gate_apply]
  rfl

/-- The tile of logits from a hidden state `H`, a weight tile `W` and its bias row `r`, at `(b, n)`: `H[b, :] · W[n, :] + r[n]`.
    Narrowing the two factors' format first changes nothing on the extended reals. -/
theorem head_apply (H : FVec Ideal S256x256 .f32) (W : FVec Ideal S3200x256 .f32) (r : FVec Ideal S1x3200 .f32)
    (b : Fin 256) (n : Fin 3200) :
    addf (F := Ideal) (matmul (F := Ideal) dot_S256x256_S3200x256_S256x3200_1_1_0_0_n_n none (truncf .bf16 H bitsLt_bf16_f32)
          (truncf .bf16 W bitsLt_bf16_f32) (constant (F := Ideal) S256x3200 .f32 0x00000000#32))
        (broadcastTo S256x3200 (shapeCast S1x3200 r shapeCasts_S1x3200_S1x3200) broadcasts_S1x3200_S256x3200) (ix2 b n)
      = (∑ h : Fin 256, H (ix2 b h) * W (ix2 n h)) + r (ix2 (0 : Fin 1) n) := by
  rw [shapeCast_self]
  show FloatOps.matmul (F := Ideal) dot_S256x256_S3200x256_S256x3200_1_1_0_0_n_n none (truncf .bf16 H bitsLt_bf16_f32)
        (truncf .bf16 W bitsLt_bf16_f32) (constant (F := Ideal) S256x3200 .f32 0x00000000#32) (ix2 b n)
      + broadcastTo S256x3200 r broadcasts_S1x3200_S256x3200 (ix2 b n) = _
  rw [TransposedDot.matmul_zero_apply dot_S256x256_S3200x256_S256x3200_1_1_0_0_n_n rfl none _ _ b n, broadcastTo_1b_ab_apply]
  rfl

/-- THE BODY'S STORED VALUE at `(b, n)`: the output layer, on the cell of the loaded gates, against the loaded weight
    tile and bias row. -/
theorem pay_apply (x0 : FVec Ideal S256x128 .f32) (x1 : FVec Ideal S128x256 .f32) (x2 : FVec Ideal S1x256 .f32)
    (x3 : FVec Ideal S128x256 .f32) (x4 : FVec Ideal S1x256 .f32) (x5 : FVec Ideal S128x256 .f32) (x6 : FVec Ideal S1x256 .f32)
    (x7 : FVec Ideal S3200x256 .f32) (x8 : FVec Ideal S1x3200 .f32) (b : Fin 256) (n : Fin 3200) :
    k0_pay1 (F := Ideal) x0 x1 x2 x3 x4 x5 x6 x7 x8 (ix2 b n)
      = (∑ h : Fin 256, cell (fun b k => x0 (ix2 b k)) (fun k h => x1 (ix2 k h)) (fun h => x2 (ix2 (0 : Fin 1) h))
            (fun k h => x3 (ix2 k h)) (fun h => x4 (ix2 (0 : Fin 1) h)) (fun k h => x5 (ix2 k h)) (fun h => x6 (ix2 (0 : Fin 1) h)) b h
          * x7 (ix2 n h)) + x8 (ix2 (0 : Fin 1) n) := by
  refine (head_apply (mulf (F := Ideal) (logistic (gateK x0 x5 x6)) (tanh (mulf (logistic (gateK x0 x1 x2)) (tanh (gateK x0 x3 x4))))) x7 x8 b n).trans ?_
  refine congrArg (· + x8 (ix2 (0 : Fin 1) n)) (Finset.sum_congr rfl fun h _ => ?_)
  exact congrArg (· * x7 (ix2 n h)) (cell_apply x0 x1 x2 x3 x4 x5 x6 b h)

end Cert.KernelIdeal.Body

end
-- ==== Proof.LibRowGather.lean ====
/-
  A row gather read at an index. What `x[idx]` of an array `x : [N, A, B]` (or `[N, A]`) at a vector of `R` row
  numbers lowers to: a gather with the row numbers as an `[R, 1]` column, the row axis collapsed, the other axes
  offset axes of full extent. Result element `(r, a, b)` is `x` at row `idx[r, 0]` — read as a signed integer and
  clamped into `[0, N - 1]`, as the gather clamps every start index — and at `(a, b)` inside the row.
-/
import Idealize.ShloMosaic.Lib.ValueIdx

noncomputable section

namespace Idealize.ShloMosaic.RowGather

open Idealize.ShloMosaic Idealize.ShloMosaic.ValueIdx

variable {α : Type}

/-- The dimension numbers of a row gather from `[N, A, B]` by an `[R, 1]` column into `[R, A, B]`. -/
abbrev dims3 (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- The dimension numbers of a row gather from `[N, A]` by an `[R, 1]` column into `[R, A]`. -/
abbrev dims2 (N A R : Nat)
    (wf : GatherDims.WF ⟨2, ![N, A]⟩ ⟨2, ![R, 1]⟩ ⟨2, ![R, A]⟩ [1] [0] [] [0] [] 1 ![1, A]) :
    GatherDims ⟨2, ![N, A]⟩ ⟨2, ![R, 1]⟩ ⟨2, ![R, A]⟩ where
  offsetDims := [1]
  collapsedSliceDims := [0]
  operandBatchingDims := []
  startIndicesBatchingDims := []
  startIndexMap := [0]
  indexVectorDim := 1
  sliceSizes := ![1, A]
  wf := wf

/-- The row a start index selects: its signed value clamped into `[0, N - 1]`. -/
def rowOf (N : Nat) (hN : 0 < N) {w : Nat} (v : BitVec w) : Fin N := ⟨min v.toInt.toNat (N - 1), by omega⟩

/-- THE READ of a rank-3 row gather at `(r, a, b)`. -/
theorem gather3_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (r : Fin R) (a : Fin A) (b : Fin B) :
    Host.gather (dims3 N A B R wf) x idx (ix3 r a b) = x (ix3 (rowOf N hN (idx (ix2 r (0 : Fin 1)))) a b) := by
  unfold Host.gather
  refine congrArg x ?_
  funext ax
  refine Fin.ext ?_
  show (dims3 N A B R wf).start (ix3 r a b) idx ax + (dims3 N A B R wf).batchCoord (ix3 r a b) ax + (dims3 N A B R wf).offCoord (ix3 r a b) ax = _
  rw [GatherDims.batchCoord_eq_zero _ _ _ List.not_mem_nil]
  match ax with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, _⟩ : Fin 3) ∈ (dims3 N A B R wf).startIndexMap from List.mem_singleton.mpr rfl)]
    have hsi : (dims3 N A B R wf).siIdx (ix3 r a b) ⟨List.idxOf (⟨0, by decide⟩ : Fin 3) (dims3 N A B R wf).startIndexMap,
        List.idxOf_lt_length_iff.2 (List.mem_singleton.mpr rfl)⟩ = ix2 r (0 : Fin 1) := by
      funext d; refine Fin.ext ?_
      match d with
      | ⟨0, _⟩ => rfl
      | ⟨1, _⟩ => rfl
    rw [hsi]
    rfl
  | ⟨1, _⟩ =>
    unfold GatherDims.start
    rw [dif_neg (show ¬ (⟨1, _⟩ : Fin 3) ∈ (dims3 N A B R wf).startIndexMap by
      show ¬ (⟨1, _⟩ : Fin 3) ∈ [(0 : Fin 3)]
      simp [Fin.ext_iff])]
    unfold GatherDims.offCoord
    rw [dif_pos (show (⟨1, _⟩ : Fin 3) ∈ (dims3 N A B R wf).sKept from
      (GatherDims.mem_sKept _ _).mpr ⟨by show ¬ (⟨1, _⟩ : Fin 3) ∈ [(0 : Fin 3)]; simp [Fin.ext_iff], List.not_mem_nil⟩)]
    simp only [Nat.zero_add]
    rfl
  | ⟨2, _⟩ =>
    unfold GatherDims.start
    rw [dif_neg (show ¬ (⟨2, _⟩ : Fin 3) ∈ (dims3 N A B R wf).startIndexMap by
      show ¬ (⟨2, _⟩ : Fin 3) ∈ [(0 : Fin 3)]
      simp [Fin.ext_iff])]
    unfold GatherDims.offCoord
    rw [dif_pos (show (⟨2, _⟩ : Fin 3) ∈ (dims3 N A B R wf).sKept from
      (GatherDims.mem_sKept _ _).mpr ⟨by show ¬ (⟨2, _⟩ : Fin 3) ∈ [(0 : Fin 3)]; simp [Fin.ext_iff], List.not_mem_nil⟩)]
    simp only [Nat.zero_add]
    rfl

/-- THE READ of a rank-2 row gather at `(r, a)`. -/
theorem gather2_apply {N A R w : Nat} (hN : 0 < N)
    (wf : GatherDims.WF ⟨2, ![N, A]⟩ ⟨2, ![R, 1]⟩ ⟨2, ![R, A]⟩ [1] [0] [] [0] [] 1 ![1, A])
    (x : (⟨2, ![N, A]⟩ : Shape).Idx → α) (idx : IVec ⟨2, ![R, 1]⟩ w) (r : Fin R) (a : Fin A) :
    Host.gather (dims2 N A R wf) x idx (ix2 r a) = x (ix2 (rowOf N hN (idx (ix2 r (0 : Fin 1)))) a) := by
  unfold Host.gather
  refine congrArg x ?_
  funext ax
  refine Fin.ext ?_
  show (dims2 N A R wf).start (ix2 r a) idx ax + (dims2 N A R wf).batchCoord (ix2 r a) ax + (dims2 N A R wf).offCoord (ix2 r a) ax = _
  rw [GatherDims.batchCoord_eq_zero _ _ _ List.not_mem_nil]
  match ax with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, _⟩ : Fin 2) ∈ (dims2 N A R wf).startIndexMap from List.mem_singleton.mpr rfl)]
    have hsi : (dims2 N A R wf).siIdx (ix2 r a) ⟨List.idxOf (⟨0, by decide⟩ : Fin 2) (dims2 N A R wf).startIndexMap,
        List.idxOf_lt_length_iff.2 (List.mem_singleton.mpr rfl)⟩ = ix2 r (0 : Fin 1) := by
      funext d; refine Fin.ext ?_
      match d with
      | ⟨0, _⟩ => rfl
      | ⟨1, _⟩ => rfl
    rw [hsi]
    rfl
  | ⟨1, _⟩ =>
    unfold GatherDims.start
    rw [dif_neg (show ¬ (⟨1, _⟩ : Fin 2) ∈ (dims2 N A R wf).startIndexMap by
      show ¬ (⟨1, _⟩ : Fin 2) ∈ [(0 : Fin 2)]
      simp [Fin.ext_iff])]
    unfold GatherDims.offCoord
    rw [dif_pos (show (⟨1, _⟩ : Fin 2) ∈ (dims2 N A R wf).sKept from
      (GatherDims.mem_sKept _ _).mpr ⟨by show ¬ (⟨1, _⟩ : Fin 2) ∈ [(0 : Fin 2)]; simp [Fin.ext_iff], List.not_mem_nil⟩)]
    simp only [Nat.zero_add]
    rfl

end Idealize.ShloMosaic.RowGather

end
-- ==== Proof.KernelHost.lean ====
/-
  What the kernel's region finds in its input arrays, read at an index.

  Before the region the host cuts the last column out of the tokens, wraps negatives by the table's height, gathers one
  embedding row per sequence, and reshapes each bias vector to a one-row matrix. So the embedding block at `(b, k)` is
  the table at the row the last token of sequence `b` selects and at column `k`; a bias row at `(0, h)` is the bias
  vector at `h`; every other window's array is an argument as launched.
-/
import proofs.«101058_j36258113912845_1_alg».proof.Proof.Gen.KernelIdeal.Frame
import proofs.«101058_j36258113912845_1_alg».proof.Proof.Spec
import proofs.«101058_j36258113912845_1_alg».proof.Proof.LibRowGather
import Idealize.ShloMosaic.Lib.ValueLayout
import Idealize.ShloMosaic.Lib.Pipeline.Value
import Idealize.ShloMosaic.Lib.StableHlo.Run

noncomputable section

namespace Cert.KernelIdeal.Host

open Cert.KernelIdeal Cert.KernelIdeal.Gen Idealize.ShloMosaic Idealize.ShloMosaic.ValueIdx Idealize.ShloMosaic.TcCoe
open Idealize.ShloMosaic.StableHlo LstmLastStep

/-- The last token of each sequence: column 511 of the tokens, as a vector. -/
def lastTok (X : IVec S256x512 32) : IVec S256 32 :=
  shapeCast S256 (extractStridedSlice S256x1 ![0, 511] X slices_S256x512_S256x1_0_511) shapeCasts_S256x1_S256

/-- The gather's index column: the last tokens, negatives wrapped by the table's height. -/
def lastIdx (X : IVec S256x512 32) : IVec S256x1 32 :=
  broadcastInDim S256x1 ![0] bcast_S256_S256x1_0
    (select (cmpi .slt (lastTok X) (broadcastInDim S256 ![] bcast_S_S256 (constantI S_ 32 0#32)))
      (addi (lastTok X) (broadcastInDim S256 ![] bcast_S_S256 (constantI S_ 32 32000#32))) (lastTok X))

theorem lastTok_apply (X : IVec S256x512 32) (b : Fin 256) : lastTok X (ix1 b) = X (ix2 b (511 : Fin 512)) := by
  unfold lastTok
  rw [shapeCast_apply _ shapeCasts_S256x1_S256 (ix1 b) (ix2 b (0 : Fin 1)) (by
    rw [Shape.rowMajor_val_two, Shape.rowMajor_val_one]
    show b.val * 1 + 0 = b.val
    omega)]
  exact slice2_axis1_apply 511 X slices_S256x512_S256x1_0_511 b (0 : Fin 1) (511 : Fin 512) rfl

/-- The index column at row `b` is the wrapped last token of sequence `b`. -/
theorem lastIdx_apply (X : IVec S256x512 32) (b : Fin 256) :
    lastIdx X (ix2 b (0 : Fin 1)) = wrap (X (ix2 b (511 : Fin 512))) := by
  unfold lastIdx
  rw [broadcastInDim_apply ![0] bcast_S256_S256x1_0 _ (ix2 b (0 : Fin 1)) (ix1 b) (fun a => by
    match a with
    | ⟨0, _⟩ => exact (if_neg (show ¬ (256 : ℕ) = 1 by decide)).symm)]
  show Scalar.select (IntOp.cmpi .slt (lastTok X (ix1 b)) 0#32) (IntOp.addi (lastTok X (ix1 b)) 32000#32) (lastTok X (ix1 b)) = _
  rw [lastTok_apply]
  rfl

/-- The gathered embeddings at `(b, k)`: the table at the row the wrapped last token selects. -/
theorem gather_apply (C : FVec Ideal S32000x128 .f32) (X : IVec S256x512 32) (b : Fin 256) (k : Fin 128) :
    Host.gather gather_S32000x128_S256x1_S256x128_1_0_n_n_0_1_1128 C (lastIdx X) (ix2 b k) = lastEmb X C b k := by
  refine (RowGather.gather2_apply (N := 32000) (A := 128) (R := 256) (by decide)
    Facts₀.gather_S32000x128_S256x1_S256x128_1_0_n_n_0_1_1128_wf C (lastIdx X) b k).trans ?_
  rw [lastIdx_apply]
  rfl

variable (m : (ℓ : Loc nD τ sig) → Buf (Elt Ideal) ℓ) (c : Dev nD)

/-- Window 0's array: the embeddings gathered at the last tokens. -/
theorem V_emb : (V m c main_v8 : S256x128.Idx → EReal)
    = Host.gather gather_S32000x128_S256x1_S256x128_1_0_n_n_0_1_1128 (m ((c : Thread nD τ).loc main_arg1))
        (lastIdx (m ((c : Thread nD τ).loc main_arg0))) := by
  dsimp only [Gen.V, Gen.hostOps0]
  after_results
  rfl

/-- Windows 2, 4 and 6's arrays: the three gate biases as one-row matrices. -/
theorem V_bi : (V m c main_v9 : S1x256.Idx → EReal) = shapeCast S1x256 (m ((c : Thread nD τ).loc main_arg4)) shapeCasts_S256_S1x256 := by
  dsimp only [Gen.V, Gen.hostOps0]
  after_results
  rfl

theorem V_bc : (V m c main_v10 : S1x256.Idx → EReal) = shapeCast S1x256 (m ((c : Thread nD τ).loc main_arg10)) shapeCasts_S256_S1x256 := by
  dsimp only [Gen.V, Gen.hostOps0]
  after_results
  rfl

theorem V_bo : (V m c main_v11 : S1x256.Idx → EReal) = shapeCast S1x256 (m ((c : Thread nD τ).loc main_arg13)) shapeCasts_S256_S1x256 := by
  dsimp only [Gen.V, Gen.hostOps0]
  after_results
  rfl

/-- Window 8's array: the output bias as a one-row matrix. -/
theorem V_bout : (V m c main_v12 : S1x32000.Idx → EReal) = shapeCast S1x32000 (m ((c : Thread nD τ).loc main_arg27)) shapeCasts_S32000_S1x32000 := by
  dsimp only [Gen.V, Gen.hostOps0]
  after_results
  rfl

end Cert.KernelIdeal.Host

end
-- ==== Proof.KernelValue.lean ====
/-
  The kernel's result array, as one function of the argument arrays.

  The grid has ten points; point `t` reads every small operand whole, rows `3200 t … 3200 t + 3199` of the output
  weights and the same stretch of the output bias, and writes columns `3200 t … 3200 t + 3199` of the result. The
  value it writes at `(b, n)` is the output layer on the hidden state of row `b` against weight row `3200 t + n`: the
  logits at `(b, 3200 t + n)`. The ten column stretches tile the 32000 columns, so the result array is the logits.
-/
import proofs.«101058_j36258113912845_1_alg».proof.Proof.Gen.KernelIdeal.Value
import proofs.«101058_j36258113912845_1_alg».proof.Proof.KernelBody
import proofs.«101058_j36258113912845_1_alg».proof.Proof.KernelHost

set_option maxRecDepth 16384

noncomputable section

namespace Cert.KernelIdeal.Logits

open Cert.KernelIdeal Cert.KernelIdeal.Gen Idealize.ShloMosaic Idealize.ShloMosaic.ValueIdx Idealize.ShloMosaic.TcCoe
open Idealize.SL.Sem LstmLastStep
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the ten grid points: the small operands never move; the weight tile's row block
    and the bias tile's column block are the output's column block, which is below ten. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = win0_9.index t (1 : Fin 2) ∧ win0_7.index t (1 : Fin 2) = 0
    ∧ win0_8.index t (0 : Fin 2) = 0 ∧ win0_8.index t (1 : Fin 2) = win0_9.index t (1 : Fin 2)
    ∧ win0_9.index t (0 : Fin 2) = 0 ∧ win0_9.index t (1 : Fin 2) ≤ 9 :=
  (by decide +kernel : ∀ t : Fin grid0.N, _)

/-- Every column block is some point's. -/
theorem idx_onto : ∀ q : Fin 10, ∃ t : Fin cfg0.N, win0_9.index t = ![0, q.val] :=
  (by decide +kernel : ∀ q : Fin 10, ∃ t : Fin grid0.N, win0_9.index t = ![0, q.val])

/-- Window 0's block at any point is its whole array (its index map is constantly zero). -/
theorem iblk0 (c : Dev nD) (t : Fin cfg0.N) : (iblk m c 0 t : S256x128.Idx → EReal) = V m c main_v8 := by
  have hf := idx_facts t
  funext y
  show V m c main_v8 (((cfg0.win 0).blk t).view.emb y) = V m c main_v8 y
  refine congrArg _ (funext fun a => Fin.ext ?_)
  match a with
  | ⟨0, _⟩ => show win0_0.index t (0 : Fin 2) * 256 + 1 * (y 0).val = (y 0).val; omega
  | ⟨1, _⟩ => show win0_0.index t (1 : Fin 2) * 128 + 1 * (y 1).val = (y 1).val; omega

/-- Window 1's block at any point is its whole array (its index map is constantly zero). -/
theorem iblk1 (c : Dev nD) (t : Fin cfg0.N) : (iblk m c 1 t : S128x256.Idx → EReal) = V m c main_arg2 := by
  have hf := idx_facts t
  funext y
  show V m c main_arg2 (((cfg0.win 1).blk t).view.emb y) = V m c main_arg2 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 256 + 1 * (y 1).val = (y 1).val; omega

/-- Window 2's block at any point is its whole array (its index map is constantly zero). -/
theorem iblk2 (c : Dev nD) (t : Fin cfg0.N) : (iblk m c 2 t : S1x256.Idx → EReal) = V m c main_v9 := by
  have hf := idx_facts t
  funext y
  show V m c main_v9 (((cfg0.win 2).blk t).view.emb y) = V m c main_v9 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- Window 3's block at any point is its whole array (its index map is constantly zero). -/
theorem iblk3 (c : Dev nD) (t : Fin cfg0.N) : (iblk m c 3 t : S128x256.Idx → EReal) = V m c main_arg8 := by
  have hf := idx_facts t
  funext y
  show V m c main_arg8 (((cfg0.win 3).blk t).view.emb y) = V m c main_arg8 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 256 + 1 * (y 1).val = (y 1).val; omega

/-- Window 4's block at any point is its whole array (its index map is constantly zero). -/
theorem iblk4 (c : Dev nD) (t : Fin cfg0.N) : (iblk m c 4 t : S1x256.Idx → EReal) = V m c main_v10 := by
  have hf := idx_facts t
  funext y
  show V m c main_v10 (((cfg0.win 4).blk t).view.emb y) = V m c main_v10 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

/-- Window 5's block at any point is its whole array (its index map is constantly zero). -/
theorem iblk5 (c : Dev nD) (t : Fin cfg0.N) : (iblk m c 5 t : S128x256.Idx → EReal) = V m c main_arg11 := by
  have hf := idx_facts t
  funext y
  show V m c main_arg11 (((cfg0.win 5).blk t).view.emb y) = V m c main_arg11 y
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 256 + 1 * (y 1).val = (y 1).val; omega

/-- Window 6's block at any point is its whole array (its index map is constantly zero). -/
theorem iblk6 (c : Dev nD) (t : Fin cfg0.N) : (iblk m c 6 t : S1x256.Idx → EReal) = V m c main_v11 := by
  have hf := idx_facts t
  funext y
  show V m c main_v11 (((cfg0.win 6).blk t).view.emb y) = V m c main_v11 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 256 + 1 * (y 1).val = (y 1).val; omega

/-- The result column that point `t` writes at its block's column `n`. -/
def col (t : Fin cfg0.N) (n : Fin 3200) : Fin 32000 :=
  ⟨win0_9.index t (1 : Fin 2) * 3200 + n.val, by have hf := idx_facts t; have := n.isLt; omega⟩

/-- Window 7's block at point `t`: rows `col t n` of the output weights. -/
theorem iblk7_apply (c : Dev nD) (t : Fin cfg0.N) (n : Fin 3200) (h : Fin 256) :
    (iblk m c 7 t : S3200x256.Idx → EReal) (ix2 n h) = V m c main_arg26 (ix2 (col t n) h) := by
  have hf := idx_facts t
  show V m c main_arg26 (((cfg0.win 7).blk t).view.emb (ix2 n h)) = V m c main_arg26 (ix2 (col t n) h)
  refine congrArg _ (funext fun a => Fin.ext ?_)
  match a with
  | ⟨0, _⟩ => show win0_7.index t (0 : Fin 2) * 3200 + 1 * n.val = win0_9.index t (1 : Fin 2) * 3200 + n.val; omega
  | ⟨1, _⟩ => show win0_7.index t (1 : Fin 2) * 256 + 1 * h.val = h.val; omega

/-- Window 8's block at point `t`: entries `col t n` of the output bias row. -/
theorem iblk8_apply (c : Dev nD) (t : Fin cfg0.N) (n : Fin 3200) :
    (iblk m c 8 t : S1x3200.Idx → EReal) (ix2 (0 : Fin 1) n) = V m c main_v12 (ix2 (0 : Fin 1) (col t n)) := by
  have hf := idx_facts t
  show V m c main_v12 (((cfg0.win 8).blk t).view.emb (ix2 (0 : Fin 1) n)) = V m c main_v12 (ix2 (0 : Fin 1) (col t n))
  refine congrArg _ (funext fun a => Fin.ext ?_)
  match a with
  | ⟨0, _⟩ => show win0_8.index t (0 : Fin 2) * 1 + 1 * 0 = 0; omega
  | ⟨1, _⟩ => show win0_8.index t (1 : Fin 2) * 3200 + 1 * n.val = win0_9.index t (1 : Fin 2) * 3200 + n.val; omega

/-- The output block's index `(b, n)` at point `t` is the array index `(b, col t n)`. -/
theorem emb9 (t : Fin cfg0.N) (b : Fin 256) (n : Fin 3200) :
    (((cfg0.win 9).blk t).view.emb (ix2 b n) : S256x32000.Idx) = ix2 b (col t n) := by
  have hf := idx_facts t
  funext a
  apply Fin.ext
  match a with
  | ⟨0, _⟩ => show win0_9.index t (0 : Fin 2) * 256 + 1 * b.val = b.val; omega
  | ⟨1, _⟩ => show win0_9.index t (1 : Fin 2) * 3200 + 1 * n.val = win0_9.index t (1 : Fin 2) * 3200 + n.val; omega

/-- The logits over the arrays as the region finds them. -/
def G (c : Dev nD) : S256x32000.Idx → EReal := fun j =>
  head (cell (fun b k => V m c main_v8 (ix2 b k)) (fun k h => V m c main_arg2 (ix2 k h)) (fun h => V m c main_v9 (ix2 (0 : Fin 1) h))
      (fun k h => V m c main_arg8 (ix2 k h)) (fun h => V m c main_v10 (ix2 (0 : Fin 1) h))
      (fun k h => V m c main_arg11 (ix2 k h)) (fun h => V m c main_v11 (ix2 (0 : Fin 1) h)))
    (fun n h => V m c main_arg26 (ix2 n h)) (fun n => V m c main_v12 (ix2 (0 : Fin 1) n)) (j 0) (j 1)

/-- WHAT POINT `t` WRITES BACK is block `t` of `G`. -/
theorem flushed_eq (c : Dev nD) (t : Fin cfg0.N) :
    (dats m 0 c).flushed 9 t = ((cfg0.win 9).blk t).view.read (Elt Ideal) (G m c) := by
  rw [Value.flushed9]
  unfold out0_9
  rw [View.canon_unit_zero hz]
  simp only [View.ld_unit_zero (S := S256x128) hz, View.ld_unit_zero (S := S128x256) hz, View.ld_unit_zero (S := S1x256) hz,
    View.ld_unit_zero (S := S3200x256) hz, View.ld_unit_zero (S := S1x3200) hz]
  funext j
  obtain ⟨b, n, rfl⟩ : ∃ (b : Fin 256) (n : Fin 3200), j = ix2 b n := ⟨j 0, j 1, eq_ix2 j⟩
  refine (Body.pay_apply (iblk m c 0 t) (iblk m c 1 t) (iblk m c 2 t) (iblk m c 3 t) (iblk m c 4 t) (iblk m c 5 t)
    (iblk m c 6 t) (iblk m c 7 t) (iblk m c 8 t) b n).trans ?_
  show _ = G m c (((cfg0.win 9).blk t).view.emb (ix2 b n))
  rw [emb9 t b n, iblk0, iblk1, iblk2, iblk3, iblk4, iblk5, iblk6, iblk8_apply]
  simp only [iblk7_apply]
  rfl

/-- An index of the result is in point `t`'s block iff each coordinate is in the block's range on its axis. -/
theorem mem_blk (t : Fin cfg0.N) (i : S256x32000.Idx) :
    i ∈ ((cfg0.win 9).blk t).view.set ↔ ∀ a : Fin 2, win0_9.index t a * S256x3200.size a ≤ (i a).val
      ∧ (i a).val < win0_9.index t a * S256x3200.size a + S256x3200.size a := by
  show i ∈ ((View.whole main_v13).slice (win0_9.rect t)).set ↔ _
  rw [View.set_slice_whole, Rect.mem_set_unit]
  exact Iff.rfl

/-- THE COVER: column `n` of the result is written by the point whose column block is `n / 3200`. -/
theorem cover (i : S256x32000.Idx) :
    ∃ t : Fin cfg0.N, (cfg0.win 9).flush t = true ∧ i ∈ ((cfg0.win 9).blk t).view.set := by
  have hi0 : (i 0).val < 256 := (i 0).isLt
  have hi1 : (i 1).val < 32000 := (i 1).isLt
  obtain ⟨t, ht⟩ := idx_onto ⟨(i 1).val / 3200, by omega⟩
  have q0 : win0_9.index t (0 : Fin 2) = 0 := congrFun ht 0
  have q1 : win0_9.index t (1 : Fin 2) = (i 1).val / 3200 := congrFun ht 1
  refine ⟨t, flush0_9 t, ?_⟩
  rw [mem_blk]
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 3200 ≤ (i 1).val ∧ (i 1).val < win0_9.index t (1 : Fin 2) * 3200 + 3200; omega

/-- THE RESULT ARRAY after the run is `G`. -/
theorem final (c : Dev nD) : (dats m 0 c).arrAt 9 cfg0.N = G m c :=
  (dats m 0 c).arrAt_eq_of_cover 9 (G m c) (fun t _ => flushed_eq m c t) cover

/-- `G` over the arguments as launched: the gathered block is the last tokens' embeddings, a bias row is its bias
    vector, the other windows' arrays are arguments no host operation writes. -/
theorem G_eq (c : Dev nD) :
    G m c = logits (m ((c : Thread nD τ).loc main_arg0)) (m ((c : Thread nD τ).loc main_arg1)) (m ((c : Thread nD τ).loc main_arg2)) (m ((c : Thread nD τ).loc main_arg4)) (m ((c : Thread nD τ).loc main_arg8)) (m ((c : Thread nD τ).loc main_arg10)) (m ((c : Thread nD τ).loc main_arg11)) (m ((c : Thread nD τ).loc main_arg13)) (m ((c : Thread nD τ).loc main_arg26)) (m ((c : Thread nD τ).loc main_arg27)) := by
  have he : (fun b k => V m c main_v8 (ix2 b k)) = lastEmb (m ((c : Thread nD τ).loc main_arg0)) (m ((c : Thread nD τ).loc main_arg1)) := by
    funext b k
    rw [Host.V_emb, Host.gather_apply]
  have hbi : (fun h => V m c main_v9 (ix2 (0 : Fin 1) h)) = fun h => (m ((c : Thread nD τ).loc main_arg4)) (ix1 h) := by
    funext h
    rw [Host.V_bi]
    exact shapeCast_a_1a_apply _ _ (0 : Fin 1) h
  have hbc : (fun h => V m c main_v10 (ix2 (0 : Fin 1) h)) = fun h => (m ((c : Thread nD τ).loc main_arg10)) (ix1 h) := by
    funext h
    rw [Host.V_bc]
    exact shapeCast_a_1a_apply _ _ (0 : Fin 1) h
  have hbo : (fun h => V m c main_v11 (ix2 (0 : Fin 1) h)) = fun h => (m ((c : Thread nD τ).loc main_arg13)) (ix1 h) := by
    funext h
    rw [Host.V_bo]
    exact shapeCast_a_1a_apply _ _ (0 : Fin 1) h
  have hbout : (fun n => V m c main_v12 (ix2 (0 : Fin 1) n)) = fun n => (m ((c : Thread nD τ).loc main_arg27)) (ix1 n) := by
    funext n
    rw [Host.V_bout]
    exact shapeCast_a_1a_apply _ _ (0 : Fin 1) n
  funext j
  unfold G logits
  rw [he, hbi, hbc, hbo, hbout, V_main_arg2, V_main_arg8, V_main_arg11, V_main_arg26]

/-! ## The run, read -/

/-- Every weakly fair execution of the kernel's program terminates with the result array at the logits of the
    arguments, the arguments unchanged. -/
theorem run : θ_run defs (onTc (τ := τ) (main (F := Ideal))) ⟨m, fun _ => 0, ρ⟩ fun r => ∀ c : Dev nD,
      r.2.mem ((c : Thread nD τ).loc main_v13)
        = logits (m ((c : Thread nD τ).loc main_arg0)) (m ((c : Thread nD τ).loc main_arg1)) (m ((c : Thread nD τ).loc main_arg2)) (m ((c : Thread nD τ).loc main_arg4)) (m ((c : Thread nD τ).loc main_arg8)) (m ((c : Thread nD τ).loc main_arg10)) (m ((c : Thread nD τ).loc main_arg11)) (m ((c : Thread nD τ).loc main_arg13)) (m ((c : Thread nD τ).loc main_arg26)) (m ((c : Thread nD τ).loc main_arg27))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27) :=
  (θ_run defs _ _).mono (fun r h c => ⟨(h c).1.trans ((final m c).trans (G_eq m c)), (h c).2⟩) (Value.run_blocks m ρ)

end Cert.KernelIdeal.Logits

end
-- ==== Proof.RefLoop.lean ====
/-
  The reference's run, read where the result needs it.

  The reference's @main is one stretch of host operations, a loop of 512 trips (the second layer's recurrence, whose
  carried values the result never reads), and a last stretch that computes the logits from the first layer's hidden
  states, which the first stretch left in one buffer. The loop's condition and body write a fixed set of buffers. A
  buffer outside that set holds after the 512 trips what it held at the loop's entry; an argument, which no operation
  writes at all, holds what it held at launch. So the result is the last stretch's operations on the first stretch's
  hidden states and on two arguments.
-/
import proofs.«101058_j36258113912845_1_alg».proof.Proof.Gen.ReferenceIdeal.Run
import Idealize.ShloMosaic.PureOps.Ideal

set_option maxRecDepth 100000

noncomputable section

namespace Cert.ReferenceIdeal.Loop

open Cert.ReferenceIdeal Cert.ReferenceIdeal.Gen Cert.ReferenceIdeal.Value
open Idealize.ShloMosaic Idealize.ShloMosaic.TcCoe Idealize.ShloMosaic.StableHlo Idealize.SL.Sem

variable {F : FTy → Type} [FloatOps F]

/-! ## The buffers each stretch writes -/

/-- The buffers the first stretch writes: every intermediate value and the loop's sixteen carried buffers. -/
abbrev preW : List (Ref sig .tc) := [main_c, main_v0, main_v1, main_c_0, main_v2, main_v3, main_v4, main_v5, main_v6, main_v7, main_v8, main_v9, main_v10, main_v11, main_v12, main_cst, main_v13, main_v14, main_cst_1, main_v15, main_v16, main_v17, main_v18, main_v19, main_v20, main_v21, main_v22, main_v23, main_v24, main_v25, main_v26, main_v27, main_cst_2, main_v28, main_v29, main_cst_3, main_v30, main_v31, main_v32, main_v33, main_v34, main_cst_4, main_v35, main_v36, main_c_5, main_v37_0, main_v37_1, main_v37_2, main_v37_3, main_v37_4, main_v37_5, main_v37_6, main_v37_7, main_v37_8, main_v37_9, main_v37_10, main_v37_11, main_v37_12, main_v37_13, main_v37_14, main_v37_15]

set_option maxHeartbeats 4000000 in
theorem pre_writes : (hostOps0 : List (HloOp τ sig (Elt F))).Forall fun op => op.writes ⊆ (preW.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
      binaryIndexed_writes, nary_writes, unaryIndexed_writes, Finset.singleton_subset_iff, List.mem_toFinset]
    <;> exact List.mem_map_of_mem (by decide))

/-- The buffers the last stretch writes. -/
abbrev postW : List (Ref sig .tc) := [main_v38, main_v39, main_v40, main_v41, main_v42, main_v43, main_v44]

theorem post_writes : (hostOps0_1 : List (HloOp τ sig (Elt F))).Forall fun op => op.writes ⊆ (postW.map (Proc.devRef (τ := τ) .tc)).toFinset := by
  simp only [List.Forall]
  refine ⟨?_, ?_, ?_, ?_, ?_, ?_, ?_⟩ <;>
    (simp only [nullary_writes, unary_writes, binary_writes, ternary_writes, quaternary_writes, reshape_writes,
      binaryIndexed_writes, nary_writes, unaryIndexed_writes, Finset.singleton_subset_iff, List.mem_toFinset]
    <;> exact List.mem_map_of_mem (by decide))

/-- The buffers the body's last stretch writes: the advanced counter and the two carried states. -/
abbrev stepW : List (Ref sig .tc) := [main_while0b_c_21, main_while0b_v47, main_v37_13, main_v37_14, main_v37_15]

theorem step_writes : (while0Ops0_2 : List (HloOp τ sig (Elt F))).Forall fun op => op.writes ⊆ (stepW.map (Proc.devRef (τ := τ) .tc)).toFinset := by
  simp only [List.Forall]
  refine ⟨?_, ?_, ?_, ?_, ?_⟩ <;>
    (simp only [nullary_writes, unary_writes, binary_writes, ternary_writes, quaternary_writes, reshape_writes,
      binaryIndexed_writes, nary_writes, unaryIndexed_writes, Finset.singleton_subset_iff, List.mem_toFinset]
    <;> exact List.mem_map_of_mem (by decide))

/-- The buffers the condition writes: its bound and its verdict. -/
abbrev condW : List (Ref sig .tc) := [main_while0c_c_21, main_while0c_v45]

theorem cond_writes : (condOps : List (HloOp τ sig (Elt F))).Forall fun op => op.writes ⊆ (condW.map (Proc.devRef (τ := τ) .tc)).toFinset := by
  simp only [List.Forall]
  refine ⟨?_, ?_⟩ <;>
    (simp only [nullary_writes, unary_writes, binary_writes, ternary_writes, quaternary_writes, reshape_writes,
      binaryIndexed_writes, nary_writes, unaryIndexed_writes, Finset.singleton_subset_iff, List.mem_toFinset]
    <;> exact List.mem_map_of_mem (by decide))

/-- A buffer neither the loop's condition nor its body writes. -/
def Kept (r : Ref sig .tc) : Prop :=
  r ∉ trip_w0_W ∧ r ∉ trip_w1_W ∧ r ∉ trip_w2_W ∧ r ∉ trip_w3_W ∧ r ∉ trip_w4_W ∧ r ∉ stepW ∧ r ∉ condW

instance (r : Ref sig .tc) : Decidable (Kept r) := by unfold Kept; infer_instance

/-! ## Through the loop -/

/-- One trip leaves a buffer it does not write as it was. -/
theorem trip_keep (X : Valuation τ sig (Elt F)) (r : Ref sig .tc) (h : Kept r) :
    afterL bodyI (after condOps X) (Proc.devRef .tc r) = X (Proc.devRef .tc r) := by
  obtain ⟨h0, h1, h2, h3, h4, h5, h6⟩ := h
  simp only [bodyI, afterL_cons, afterL_nil, trip_windows]
  rw [after_of_writes_sub while0Ops0_2 _ step_writes h5, val5_keep _ r h4, val4_keep _ r h3, val3_keep _ r h2,
    val2_keep _ r h1, val1_keep _ r h0]
  exact after_of_writes_sub condOps X cond_writes h6

variable (m : (ℓ : Loc nD τ sig) → Buf (Elt F) ℓ) (ρ : Dev nD → PrngReg)

/-- Before every run of the condition such a buffer holds what it held at the loop's entry. -/
theorem atK_keep (c : Dev nD) (r : Ref sig .tc) (h : Kept r) :
    ∀ k, atK m k c (Proc.devRef .tc r) = entryContents preI m c (Proc.devRef .tc r)
  | 0 => rfl
  | k + 1 => by
    rw [show atK m (k + 1) c = afterL bodyI (after condOps (atK m k c)) from rfl, trip_keep _ r h, atK_keep c r h k]

/-- After the last, failing, condition too. -/
theorem exit_keep (c : Dev nD) (r : Ref sig .tc) (h : Kept r) :
    after condOps (atK m 512 c) (Proc.devRef .tc r) = entryContents preI m c (Proc.devRef .tc r) := by
  rw [after_of_writes_sub condOps _ cond_writes h.2.2.2.2.2.2, atK_keep m c r h 512]

/-- A buffer no operation of @main writes ends as launched. -/
theorem final_untouched (c : Dev nD) (r : Ref sig .tc) (hk : Kept r) (hpre : r ∉ preW) (hpost : r ∉ postW) :
    finalContents condOps preI bodyI postI 512 m c (Proc.devRef .tc r) = m ((c.tc : Thread nD τ).loc r) := by
  show afterL postI (after condOps (atK m 512 c)) (Proc.devRef .tc r) = _
  simp only [postI, afterL_cons, afterL_nil]
  rw [after_of_writes_sub hostOps0_1 _ post_writes hpost, exit_keep m c r hk]
  show afterL preI (launchContents m c) (Proc.devRef .tc r) = _
  simp only [preI, afterL_cons, afterL_nil]
  rw [after_of_writes_sub hostOps0 _ pre_writes hpre]

/-! ## The frame: every argument ends unchanged -/

theorem args_kept (r : PUnit × MemSt nD τ sig (Elt F))
    (h : ∀ (c : Dev nD) (b : Ref sig .tc), (Proc.devRef .tc b : DevRef τ sig).isScoped = false →
      r.2.mem ((c.tc : Thread nD τ).loc b) = finalContents condOps preI bodyI postI 512 m c (Proc.devRef .tc b)) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24)
    ∧ r.2.mem ((c.tc : Thread nD τ).loc main_arg25) = m ((c.tc : Thread nD τ).loc main_arg25)
    ∧ r.2.mem ((c.tc : Thread nD τ).loc main_arg26) = m ((c.tc : Thread nD τ).loc main_arg26)
    ∧ r.2.mem ((c.tc : Thread nD τ).loc main_arg27) = m ((c.tc : Thread nD τ).loc main_arg27) :=
  ⟨(h c main_arg0 rfl).trans (final_untouched m c main_arg0 (by decide) (by decide) (by decide)),
   (h c main_arg1 rfl).trans (final_untouched m c main_arg1 (by decide) (by decide) (by decide)),
   (h c main_arg2 rfl).trans (final_untouched m c main_arg2 (by decide) (by decide) (by decide)),
   (h c main_arg3 rfl).trans (final_untouched m c main_arg3 (by decide) (by decide) (by decide)),
   (h c main_arg4 rfl).trans (final_untouched m c main_arg4 (by decide) (by decide) (by decide)),
   (h c main_arg5 rfl).trans (final_untouched m c main_arg5 (by decide) (by decide) (by decide)),
   (h c main_arg6 rfl).trans (final_untouched m c main_arg6 (by decide) (by decide) (by decide)),
   (h c main_arg7 rfl).trans (final_untouched m c main_arg7 (by decide) (by decide) (by decide)),
   (h c main_arg8 rfl).trans (final_untouched m c main_arg8 (by decide) (by decide) (by decide)),
   (h c main_arg9 rfl).trans (final_untouched m c main_arg9 (by decide) (by decide) (by decide)),
   (h c main_arg10 rfl).trans (final_untouched m c main_arg10 (by decide) (by decide) (by decide)),
   (h c main_arg11 rfl).trans (final_untouched m c main_arg11 (by decide) (by decide) (by decide)),
   (h c main_arg12 rfl).trans (final_untouched m c main_arg12 (by decide) (by decide) (by decide)),
   (h c main_arg13 rfl).trans (final_untouched m c main_arg13 (by decide) (by decide) (by decide)),
   (h c main_arg14 rfl).trans (final_untouched m c main_arg14 (by decide) (by decide) (by decide)),
   (h c main_arg15 rfl).trans (final_untouched m c main_arg15 (by decide) (by decide) (by decide)),
   (h c main_arg16 rfl).trans (final_untouched m c main_arg16 (by decide) (by decide) (by decide)),
   (h c main_arg17 rfl).trans (final_untouched m c main_arg17 (by decide) (by decide) (by decide)),
   (h c main_arg18 rfl).trans (final_untouched m c main_arg18 (by decide) (by decide) (by decide)),
   (h c main_arg19 rfl).trans (final_untouched m c main_arg19 (by decide) (by decide) (by decide)),
   (h c main_arg20 rfl).trans (final_untouched m c main_arg20 (by decide) (by decide) (by decide)),
   (h c main_arg21 rfl).trans (final_untouched m c main_arg21 (by decide) (by decide) (by decide)),
   (h c main_arg22 rfl).trans (final_untouched m c main_arg22 (by decide) (by decide) (by decide)),
   (h c main_arg23 rfl).trans (final_untouched m c main_arg23 (by decide) (by decide) (by decide)),
   (h c main_arg24 rfl).trans (final_untouched m c main_arg24 (by decide) (by decide) (by decide)),
   (h c main_arg25 rfl).trans (final_untouched m c main_arg25 (by decide) (by decide) (by decide)),
   (h c main_arg26 rfl).trans (final_untouched m c main_arg26 (by decide) (by decide) (by decide)),
   (h c main_arg27 rfl).trans (final_untouched m c main_arg27 (by decide) (by decide) (by decide))⟩

end Cert.ReferenceIdeal.Loop

end
-- ==== Proof.RefTerm.lean ====
/-
  The reference's result as a term of its arguments, stage by stage.

  Every token is wrapped and looked up (`embAll`, one embedding per sequence and time step); each gate is the product
  of all embeddings with a weight matrix plus a bias spread over sequences and steps (`gateAll`); the logistic function
  is spelled `1 / (1 + e^(-x))` (`sigAll`); the first layer's hidden states are the cell of the three gates (`hidAll`);
  the logits are the hidden states of the last step times the transposed output weights plus the output bias (`outOf`).
-/
import proofs.«101058_j36258113912845_1_alg».proof.Proof.Gen.ReferenceIdeal

noncomputable section

namespace Cert.ReferenceIdeal.Term

open Cert.ReferenceIdeal Cert.ReferenceIdeal.Gen Idealize.ShloMosaic

variable {F : FTy → Type} [FloatOps F]

/-- All tokens, negatives wrapped by the table's height, as the gather's index tensor. -/
def allIdx (X : IVec S256x512 32) : IVec S256x512x1 32 :=
  broadcastInDim S256x512x1 ![0, 1] bcast_S256x512_S256x512x1_0_1
    (select (cmpi .slt X (broadcastInDim S256x512 ![] bcast_S_S256x512 (constantI S_ 32 0#32)))
      (addi X (broadcastInDim S256x512 ![] bcast_S_S256x512 (constantI S_ 32 32000#32))) X)

/-- The embedding of every token. -/
def embAll (X : IVec S256x512 32) (C : FVec F S32000x128 .f32) : FVec F S256x512x128 .f32 :=
  Host.gather gather_S32000x128_S256x512x1_S256x512x128_2_0_n_n_0_2_1128 C (allIdx X)

/-- One gate before its nonlinearity, for every sequence, step and hidden unit. -/
def gateAll (E : FVec F S256x512x128 .f32) (U : FVec F S128x256 .f32) (β : FVec F S256 .f32) : FVec F S256x512x256 .f32 :=
  addf (Host.dotGeneral dot_S256x512x128_S128x256_S256x512x256_2_0_01_1_n_n none E U)
    (broadcastInDim S256x512x256 ![0, 1, 2] bcast_S1x1x256_S256x512x256_0_1_2
      (broadcastInDim S1x1x256 ![2] bcast_S256_S1x1x256_2 β))

/-- The logistic function as the reference spells it: `1 / (1 + e^(-x))`. -/
def sigAll (x : FVec F S256x512x256 .f32) : FVec F S256x512x256 .f32 :=
  Host.divf (broadcastInDim S256x512x256 ![] bcast_S_S256x512x256 (constant S_ .f32 0x3F800000#32))
    (addf (broadcastInDim S256x512x256 ![] bcast_S_S256x512x256 (constant S_ .f32 0x3F800000#32)) (Host.exp (Host.negf x)))

/-- The first layer's hidden state at every step. -/
def hidAll (X : IVec S256x512 32) (C : FVec F S32000x128 .f32) (Ui : FVec F S128x256 .f32) (bi : FVec F S256 .f32)
    (Uc : FVec F S128x256 .f32) (bc : FVec F S256 .f32) (Uo : FVec F S128x256 .f32) (bo : FVec F S256 .f32) :
    FVec F S256x512x256 .f32 :=
  mulf (sigAll (gateAll (embAll X C) Uo bo))
    (Host.tanh (mulf (sigAll (gateAll (embAll X C) Ui bi)) (Host.tanh (gateAll (embAll X C) Uc bc))))

/-- The logits from the hidden states of all steps: the last step's, times the transposed weights, plus the bias. -/
def outOf (H : FVec F S256x512x256 .f32) (W : FVec F S32000x256 .f32) (bout : FVec F S32000 .f32) : FVec F S256x32000 .f32 :=
  addf (Host.dotGeneral dot_S256x256_S256x32000_S256x32000_1_0_0_1_n_n none
      (shapeCast S256x256 (extractStridedSlice S256x1x256 ![0, 511, 0] H slices_S256x512x256_S256x1x256_0_511_0)
        shapeCasts_S256x1x256_S256x256)
      (transpose S256x32000 [1, 0] W transposes_S32000x256_S256x32000_1_0))
    (broadcastInDim S256x32000 ![0, 1] bcast_S1x32000_S256x32000_0_1 (broadcastInDim S1x32000 ![1] bcast_S32000_S1x32000_1 bout))

end Cert.ReferenceIdeal.Term

end
-- ==== Proof.RefRun.lean ====
/-
  The reference's run with its result named.

  The hidden states the first stretch computes stay in their buffer through the 512 trips, and the output weights and
  bias are arguments; so after the run the result buffer holds the last stretch's operations on them: `outOf` of
  `hidAll` of the arguments. With every argument unchanged this is the reference's run as the claim needs it.
-/
import proofs.«101058_j36258113912845_1_alg».proof.Proof.RefLoop
import proofs.«101058_j36258113912845_1_alg».proof.Proof.RefTerm

set_option maxRecDepth 100000

noncomputable section

namespace Cert.ReferenceIdeal.Loop

open Cert.ReferenceIdeal Cert.ReferenceIdeal.Gen Cert.ReferenceIdeal.Value Cert.ReferenceIdeal.Term
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- At the loop's entry a buffer the first stretch does not write is as launched. -/
theorem entry_untouched (c : Dev nD) (r : Ref sig .tc) (hpre : r ∉ preW) :
    entryContents preI m c (Proc.devRef .tc r) = m ((c.tc : Thread nD τ).loc r) := by
  show afterL preI (launchContents m c) (Proc.devRef .tc r) = _
  simp only [preI, afterL_cons, afterL_nil]
  rw [after_of_writes_sub hostOps0 _ pre_writes hpre]

set_option maxHeartbeats 4000000 in
/-- At the loop's entry the first layer's hidden states are `hidAll` of the arguments. -/
theorem entry_hidden (c : Dev nD) :
    entryContents preI m c (Proc.devRef .tc main_v34)
      = hidAll (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg8)) (m ((c.tc : Thread nD τ).loc main_arg10)) (m ((c.tc : Thread nD τ).loc main_arg11)) (m ((c.tc : Thread nD τ).loc main_arg13)) := by
  show afterL preI (launchContents m c) (Proc.devRef .tc main_v34) = _
  simp only [preI, afterL_cons, afterL_nil]
  after_results
  rfl

/-- After the run the result buffer holds the logits' term of the arguments. -/
theorem final_result (c : Dev nD) :
    finalContents condOps preI bodyI postI 512 m c (Proc.devRef .tc main_v44)
      = outOf (hidAll (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg8)) (m ((c.tc : Thread nD τ).loc main_arg10)) (m ((c.tc : Thread nD τ).loc main_arg11)) (m ((c.tc : Thread nD τ).loc main_arg13))) (m ((c.tc : Thread nD τ).loc main_arg26)) (m ((c.tc : Thread nD τ).loc main_arg27)) := by
  show afterL postI (after condOps (atK m 512 c)) (Proc.devRef .tc main_v44) = _
  simp only [postI, afterL_cons, afterL_nil]
  after_results
  rw [atK_keep m c main_v34 (by decide) 512, atK_keep m c main_arg26 (by decide) 512, atK_keep m c main_arg27 (by decide) 512,
    entry_hidden, entry_untouched m c main_arg26 (by decide), entry_untouched m c main_arg27 (by decide)]
  rfl

/-- THE REFERENCE'S RUN: every weakly fair execution terminates with the result at `outOf (hidAll …)` of the arguments,
    the arguments unchanged. -/
theorem run : θ_run (defs (F := F)) (onTc (τ := τ) (main (F := F))) ⟨m, fun _ => 0, ρ⟩ fun r => ∀ c : Dev nD,
      r.2.mem ((c.tc : Thread nD τ).loc main_v44)
        = outOf (hidAll (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg8)) (m ((c.tc : Thread nD τ).loc main_arg10)) (m ((c.tc : Thread nD τ).loc main_arg11)) (m ((c.tc : Thread nD τ).loc main_arg13))) (m ((c.tc : Thread nD τ).loc main_arg26)) (m ((c.tc : Thread nD τ).loc main_arg27))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run (defs (F := F)) _ _).mono (fun r h c => ⟨(h c main_v44 rfl).trans (final_result m c), args_kept m r h c⟩) (run_fold m ρ)

end Cert.ReferenceIdeal.Loop

end
-- ==== Proof.LibTakeRows.lean ====
/-
  Rows of a table taken at an array of row numbers, read at an index.

  What `x[idx]` of a table `x : [N, A]` at an integer array `idx : [R, C]` lowers to: a gather with the row numbers
  as `[R, C, 1]`, the row axis collapsed, the column axis an offset axis of full extent placed last. Result element
  `(r, c, a)` is `x` at row `idx[r, c, 0]` — read as a signed integer and clamped into `[0, N - 1]`, as the gather
  clamps every start index — and at column `a`.
-/
import Idealize.ShloMosaic.Lib.ValueIdx

noncomputable section

namespace Idealize.ShloMosaic.TakeRows

open Idealize.ShloMosaic Idealize.ShloMosaic.ValueIdx

variable {α : Type}

/-- The dimension numbers of taking rows of `[N, A]` at `[R, C, 1]` row numbers into `[R, C, A]`. -/
abbrev dims (N A R C : Nat)
    (wf : GatherDims.WF ⟨2, ![N, A]⟩ ⟨3, ![R, C, 1]⟩ ⟨3, ![R, C, A]⟩ [2] [0] [] [0] [] 2 ![1, A]) :
    GatherDims ⟨2, ![N, A]⟩ ⟨3, ![R, C, 1]⟩ ⟨3, ![R, C, A]⟩ where
  offsetDims := [2]
  collapsedSliceDims := [0]
  operandBatchingDims := []
  startIndicesBatchingDims := []
  startIndexMap := [0]
  indexVectorDim := 2
  sliceSizes := ![1, A]
  wf := wf

/-- The row a start index selects: its signed value clamped into `[0, N - 1]`. -/
def rowOf (N : Nat) (hN : 0 < N) {w : Nat} (v : BitVec w) : Fin N := ⟨min v.toInt.toNat (N - 1), by omega⟩

/-- A start index that is a row number below `N` (and below `2^(w-1)`, so nonnegative as a signed integer) selects
    that row. -/
theorem rowOf_ofNat {N : Nat} (hN : 0 < N) {w : Nat} (s : Nat) (hs : s < N) (hw : 2 * s < 2 ^ w) :
    rowOf N hN (BitVec.ofNat w s) = ⟨s, hs⟩ := by
  refine Fin.ext ?_
  show min (BitVec.ofNat w s).toInt.toNat (N - 1) = s
  have h1 : (BitVec.ofNat w s).toNat = s := by
    rw [BitVec.toNat_ofNat]; exact Nat.mod_eq_of_lt (by omega)
  have h2 : (BitVec.ofNat w s).toInt = (s : Int) := by
    rw [BitVec.toInt_eq_toNat_cond, h1, if_pos hw]
  rw [h2, Int.toNat_natCast]
  omega

/-- THE READ at `(r, c, a)`. -/
theorem take_rows_apply {N A R C w : Nat} (hN : 0 < N)
    (wf : GatherDims.WF ⟨2, ![N, A]⟩ ⟨3, ![R, C, 1]⟩ ⟨3, ![R, C, A]⟩ [2] [0] [] [0] [] 2 ![1, A])
    (x : (⟨2, ![N, A]⟩ : Shape).Idx → α) (idx : IVec ⟨3, ![R, C, 1]⟩ w) (r : Fin R) (c : Fin C) (a : Fin A) :
    Host.gather (dims N A R C wf) x idx (ix3 r c a) = x (ix2 (rowOf N hN (idx (ix3 r c (0 : Fin 1)))) a) := by
  unfold Host.gather
  refine congrArg x ?_
  funext ax
  refine Fin.ext ?_
  show (dims N A R C wf).start (ix3 r c a) idx ax + (dims N A R C wf).batchCoord (ix3 r c a) ax
      + (dims N A R C wf).offCoord (ix3 r c a) ax = _
  rw [GatherDims.batchCoord_eq_zero _ _ _ List.not_mem_nil]
  match ax with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, _⟩ : Fin 2) ∈ (dims N A R C wf).startIndexMap from List.mem_singleton.mpr rfl)]
    have hsi : (dims N A R C wf).siIdx (ix3 r c a) ⟨List.idxOf (⟨0, by decide⟩ : Fin 2) (dims N A R C wf).startIndexMap,
        List.idxOf_lt_length_iff.2 (List.mem_singleton.mpr rfl)⟩ = ix3 r c (0 : Fin 1) := by
      funext d; refine Fin.ext ?_
      match d with
      | ⟨0, _⟩ => rfl
      | ⟨1, _⟩ => rfl
      | ⟨2, _⟩ => rfl
    rw [hsi]
    rfl
  | ⟨1, _⟩ =>
    unfold GatherDims.start
    rw [dif_neg (show ¬ (⟨1, _⟩ : Fin 2) ∈ (dims N A R C wf).startIndexMap by
      show ¬ (⟨1, _⟩ : Fin 2) ∈ [(0 : Fin 2)]
      simp [Fin.ext_iff])]
    unfold GatherDims.offCoord
    rw [dif_pos (show (⟨1, _⟩ : Fin 2) ∈ (dims N A R C wf).sKept from
      (GatherDims.mem_sKept _ _).mpr ⟨by show ¬ (⟨1, _⟩ : Fin 2) ∈ [(0 : Fin 2)]; simp [Fin.ext_iff], List.not_mem_nil⟩)]
    simp only [Nat.zero_add]
    rfl

end Idealize.ShloMosaic.TakeRows

end
-- ==== Proof.LibElu.lean ====
/-
  The exponential linear unit, in two spellings, over the extended reals.

  `elu y` is `y` above zero and `e^y - 1` otherwise (so `-1` at minus infinity and plus infinity at plus infinity).
  A kernel writes it as  select (y > 0) y (exp (min y 0) - 1):  the exponential is taken of `min y 0`, which is `y`
  itself wherever the second branch is chosen.  The host writes it as
  select (y > 0) y (1 * expm1 (select (y > 0) 0 y)):  `expm1 z` is `e^z - 1`, the inner select returns `y` wherever
  the outer one reads its second branch, and `1 * z = z` on every extended real.  Neither equation needs a finite `y`.
  The comparison arrays, the zeros and the ones are taken as arbitrary arrays that read `0` and `1` at every index, so
  that the lemmas apply however a program spells its constants.
-/
import Idealize.ShloMosaic.PureOps.Ideal
import Idealize.ShloMosaic.PureOps.Ideal.Laws
import Idealize.ShloMosaic.Lib.ValueIdx

noncomputable section

namespace Idealize.ShloMosaic.EluForms

open Idealize.ShloMosaic Idealize.ShloMosaic.ValueIdx

/-- The float word of `1.0` denotes one. -/
theorem ofBits_one_f32 : Ideal.ofBits .f32 0x3F800000#32 = 1 := by
  simp [Ideal.ofBits, Ideal.ieee, -EReal.coe_mul]; norm_num

/-- The exponential linear unit on the extended reals. -/
def elu (y : EReal) : EReal := if 0 < y then y else Ideal.exp y - 1

/-- The kernel's spelling at one element. -/
theorem kernel_scalar (y : EReal) :
    Scalar.select (Ideal.cmp .ogt y 0) y (Ideal.exp (min y 0) - 1) = elu y := by
  unfold elu Scalar.select Ideal.cmp
  by_cases h : 0 < y
  · simp [h]
  · simp [h, min_eq_left (not_lt.mp h)]

/-- The host's spelling at one element. -/
theorem host_scalar (y : EReal) :
    Scalar.select (Ideal.cmp .ogt y 0) y (1 * (Ideal.exp (Scalar.select (Ideal.cmp .ogt y 0) 0 y) - 1)) = elu y := by
  unfold elu Scalar.select Ideal.cmp
  by_cases h : 0 < y
  · simp [h]
  · simp [h]

variable {s : Shape}

/-- A kernel's exponential linear unit read at an index: the comparison and the minimum against arrays of zeros, the
    subtraction of an array of ones. -/
theorem kernel_apply (x z z' o : FVec Ideal s .f32) (hz : ∀ i, z i = 0) (hz' : ∀ i, z' i = 0) (ho : ∀ i, o i = 1)
    (i : s.Idx) :
    select (cmpf .ogt x z) x (subf (exp (minimumf x z')) o) i = elu (x i) := by
  show Scalar.select (Ideal.cmp .ogt (x i) (z i)) (x i) (Ideal.exp (min (x i) (z' i)) - o i) = _
  rw [hz, hz', ho]
  exact kernel_scalar (x i)

/-- The same with the comparison and the exponential handed over as separate arrays, as a kernel cut into parts
    passes them on. -/
theorem kernel_split_apply (x z z' o : FVec Ideal s .f32) (c : IVec s 1) (e : FVec Ideal s .f32)
    (hc : c = cmpf .ogt x z) (he : e = exp (minimumf x z'))
    (hz : ∀ i, z i = 0) (hz' : ∀ i, z' i = 0) (ho : ∀ i, o i = 1) (i : s.Idx) :
    select c x (subf e o) i = elu (x i) := by
  subst hc he
  exact kernel_apply x z z' o hz hz' ho i

/-- The host's exponential linear unit read at an index. -/
theorem host_apply (x z z' z'' o : FVec Ideal s .f32) (hz : ∀ i, z i = 0) (hz' : ∀ i, z' i = 0) (hz'' : ∀ i, z'' i = 0)
    (ho : ∀ i, o i = 1) (i : s.Idx) :
    select (cmpf .ogt x z) x (mulf o (Host.expm1 (select (cmpf .ogt x z') z'' x))) i = elu (x i) := by
  show Scalar.select (Ideal.cmp .ogt (x i) (z i)) (x i)
      (o i * (Ideal.exp (Scalar.select (Ideal.cmp .ogt (x i) (z' i)) (z'' i) (x i)) - 1)) = _
  rw [hz, hz', hz'', ho]
  exact host_scalar (x i)

/-- A scalar constant spread over a shape by the host reads the constant's word at every index. -/
theorem bcast_constant_apply (h : (⟨0, ![]⟩ : Shape).BroadcastsInDim s ![]) (b : BitVec 32) (i : s.Idx) :
    broadcastInDim s ![] h (constant (F := Ideal) ⟨0, ![]⟩ .f32 b) i = Ideal.ofBits .f32 b := rfl

end Idealize.ShloMosaic.EluForms

end
-- ==== Proof.RefValue.lean ====
/-
  The reference's result term is the logits, index by index.

  Read at `(b, n)`, the last product is the sum over hidden units `h` of the last step's hidden state `(b, 511, h)` times
  the weight `(n, h)` (the transposed matrix read back), plus the bias at `n`. The hidden state at `(b, 511, h)` is the
  cell of three gates there; a gate at `(b, 511, h)` is the sum over the embedding coordinate of the embedding of
  token `(b, 511)` times the weight, plus the bias at `h`; the embedding of token `(b, 511)` is the table at the row
  the wrapped token selects. The reference's `1 / (1 + e^(-x))` with the constant `1.0` IS the logistic function on
  the extended reals, its values at the infinities included.
-/
import proofs.«101058_j36258113912845_1_alg».proof.Proof.RefTerm
import proofs.«101058_j36258113912845_1_alg».proof.Proof.Spec
import proofs.«101058_j36258113912845_1_alg».proof.Proof.LibTakeRows
import proofs.«101058_j36258113912845_1_alg».proof.Proof.LibPlainDot
import proofs.«101058_j36258113912845_1_alg».proof.Proof.LibElu
import Idealize.ShloMosaic.Lib.ValueLayout
import Idealize.ShloMosaic.Lib.Pipeline.Value
import Idealize.ShloMosaic.PureOps.Ideal.Laws

noncomputable section

namespace Cert.ReferenceIdeal.Logits

open Cert.ReferenceIdeal Cert.ReferenceIdeal.Gen Cert.ReferenceIdeal.Term
open Idealize.ShloMosaic Idealize.ShloMosaic.ValueIdx LstmLastStep

/-- The index tensor at `(b, t, 0)` is the wrapped token `(b, t)`. -/
theorem allIdx_apply (X : IVec S256x512 32) (b : Fin 256) (t : Fin 512) :
    allIdx X (ix3 b t (0 : Fin 1)) = wrap (X (ix2 b t)) := by
  unfold allIdx
  rw [broadcastInDim_apply ![0, 1] bcast_S256x512_S256x512x1_0_1 _ (ix3 b t (0 : Fin 1)) (ix2 b t) (fun a => by
    match a with
    | ⟨0, _⟩ => exact (if_neg (show ¬ (256 : ℕ) = 1 by decide)).symm
    | ⟨1, _⟩ => exact (if_neg (show ¬ (512 : ℕ) = 1 by decide)).symm)]
  rfl

/-- The embedding of token `(b, t)` at coordinate `k`: the table at the row the wrapped token selects. -/
theorem embAll_apply (X : IVec S256x512 32) (C : FVec Ideal S32000x128 .f32) (b : Fin 256) (t : Fin 512) (k : Fin 128) :
    embAll X C (ix3 b t k) = C (ix2 (rowOf (wrap (X (ix2 b t)))) k) := by
  unfold embAll
  refine (TakeRows.take_rows_apply (N := 32000) (A := 128) (R := 256) (C := 512) (by decide)
    gather_S32000x128_S256x512x1_S256x512x128_2_0_n_n_0_2_1128_wf C (allIdx X) b t k).trans ?_
  rw [allIdx_apply]
  rfl

/-- The product of all embeddings with a gate's weights at `(b, t, h)`: the sum over the embedding coordinate. -/
theorem dot3_apply (E : FVec Ideal S256x512x128 .f32) (U : FVec Ideal S128x256 .f32) (b : Fin 256) (t : Fin 512) (h : Fin 256) :
    Host.dotGeneral dot_S256x512x128_S128x256_S256x512x256_2_0_01_1_n_n none E U (ix3 b t h) = ∑ k : Fin 128, E (ix3 b t k) * U (ix2 k h) := by
  show FloatOps.dotGeneral dot_S256x512x128_S128x256_S256x512x256_2_0_01_1_n_n none _ E U (ix3 b t h) = _
  rw [Ideal.dotGeneral_apply, ← Equiv.sum_comp (contrEquiv1 dot_S256x512x128_S128x256_S256x512x256_2_0_01_1_n_n 128 rfl rfl).symm]
  refine Finset.sum_congr rfl fun k _ => ?_
  have hl : (dot_S256x512x128_S128x256_S256x512x256_2_0_01_1_n_n).lhsIdx (ix3 b t h) ((contrEquiv1 dot_S256x512x128_S128x256_S256x512x256_2_0_01_1_n_n 128 rfl rfl).symm k) = ix3 b t k := by
    funext a
    apply Fin.ext
    match a with
    | ⟨0, _⟩ => rfl
    | ⟨1, _⟩ => rfl
    | ⟨2, _⟩ => rfl
  have hr : (dot_S256x512x128_S128x256_S256x512x256_2_0_01_1_n_n).rhsIdx (ix3 b t h) ((contrEquiv1 dot_S256x512x128_S128x256_S256x512x256_2_0_01_1_n_n 128 rfl rfl).symm k) = ix2 k h := by
    funext a
    apply Fin.ext
    match a with
    | ⟨0, _⟩ => rfl
    | ⟨1, _⟩ => rfl
  rw [hl, hr]

/-- A gate's bias spread over sequences and steps, at `(b, t, h)`: the bias at `h`. -/
theorem bias3_apply (β : FVec Ideal S256 .f32) (b : Fin 256) (t : Fin 512) (h : Fin 256) :
    broadcastInDim S256x512x256 ![0, 1, 2] bcast_S1x1x256_S256x512x256_0_1_2
      (broadcastInDim S1x1x256 ![2] bcast_S256_S1x1x256_2 β) (ix3 b t h) = β (ix1 h) := by
  rw [broadcastInDim_apply ![0, 1, 2] bcast_S1x1x256_S256x512x256_0_1_2 _ (ix3 b t h) (ix3 (0 : Fin 1) (0 : Fin 1) h) (fun a => by
    match a with
    | ⟨0, _⟩ => exact (if_pos rfl).symm
    | ⟨1, _⟩ => exact (if_pos rfl).symm
    | ⟨2, _⟩ => exact (if_neg (show ¬ (256 : ℕ) = 1 by decide)).symm)]
  exact broadcastInDim_apply ![2] bcast_S256_S1x1x256_2 β (ix3 (0 : Fin 1) (0 : Fin 1) h) (ix1 h) (fun a => by
    match a with
    | ⟨0, _⟩ => exact (if_neg (show ¬ (256 : ℕ) = 1 by decide)).symm)

/-- A gate at `(b, t, h)`. -/
theorem gateAll_apply (E : FVec Ideal S256x512x128 .f32) (U : FVec Ideal S128x256 .f32) (β : FVec Ideal S256 .f32)
    (b : Fin 256) (t : Fin 512) (h : Fin 256) :
    gateAll E U β (ix3 b t h) = (∑ k : Fin 128, E (ix3 b t k) * U (ix2 k h)) + β (ix1 h) := by
  unfold gateAll
  show Host.dotGeneral dot_S256x512x128_S128x256_S256x512x256_2_0_01_1_n_n none E U (ix3 b t h) + _ = _
  rw [dot3_apply, bias3_apply]

/-- `1 / (1 + e^(-x))` with the constant `1.0` is the logistic function, at every extended real. -/
theorem sigAll_apply (x : FVec Ideal S256x512x256 .f32) (i : S256x512x256.Idx) : sigAll x i = Ideal.logistic (x i) := by
  unfold sigAll
  show Ideal.div (Ideal.ofBits .f32 0x3F800000#32) (Ideal.ofBits .f32 0x3F800000#32 + Ideal.exp (-(x i))) = _
  rw [EluForms.ofBits_one_f32]
  rfl

/-- The hidden state of the LAST step at `(b, h)`: the cell of the three gates of the last token's embedding. -/
theorem hidAll_apply (X : IVec S256x512 32) (C : FVec Ideal S32000x128 .f32) (Ui : FVec Ideal S128x256 .f32) (bi : FVec Ideal S256 .f32)
    (Uc : FVec Ideal S128x256 .f32) (bc : FVec Ideal S256 .f32) (Uo : FVec Ideal S128x256 .f32) (bo : FVec Ideal S256 .f32)
    (b h : Fin 256) :
    hidAll X C Ui bi Uc bc Uo bo (ix3 b (511 : Fin 512) h)
      = cell (lastEmb X C) (fun k h => Ui (ix2 k h)) (fun h => bi (ix1 h)) (fun k h => Uc (ix2 k h)) (fun h => bc (ix1 h))
          (fun k h => Uo (ix2 k h)) (fun h => bo (ix1 h)) b h := by
  unfold hidAll
  show sigAll (gateAll (embAll X C) Uo bo) (ix3 b (511 : Fin 512) h)
      * Ideal.tanh (sigAll (gateAll (embAll X C) Ui bi) (ix3 b (511 : Fin 512) h)
          * Ideal.tanh (gateAll (embAll X C) Uc bc (ix3 b (511 : Fin 512) h))) = _
  rw [sigAll_apply, sigAll_apply, gateAll_apply, gateAll_apply, gateAll_apply]
  simp only [embAll_apply]
  rfl

/-- The output bias spread over the batch, at `(b, n)`: the bias at `n`. -/
theorem bias2_apply (β : FVec Ideal S32000 .f32) (b : Fin 256) (n : Fin 32000) :
    broadcastInDim S256x32000 ![0, 1] bcast_S1x32000_S256x32000_0_1
      (broadcastInDim S1x32000 ![1] bcast_S32000_S1x32000_1 β) (ix2 b n) = β (ix1 n) := by
  rw [broadcastInDim_apply ![0, 1] bcast_S1x32000_S256x32000_0_1 _ (ix2 b n) (ix2 (0 : Fin 1) n) (fun a => by
    match a with
    | ⟨0, _⟩ => exact (if_pos rfl).symm
    | ⟨1, _⟩ => exact (if_neg (show ¬ (32000 : ℕ) = 1 by decide)).symm)]
  exact broadcastInDim_apply ![1] bcast_S32000_S1x32000_1 β (ix2 (0 : Fin 1) n) (ix1 n) (fun a => by
    match a with
    | ⟨0, _⟩ => exact (if_neg (show ¬ (32000 : ℕ) = 1 by decide)).symm)

/-- The last step's hidden states cut out and squeezed, at `(b, h)`. -/
theorem last_apply (H : FVec Ideal S256x512x256 .f32) (b h : Fin 256) :
    shapeCast S256x256 (extractStridedSlice S256x1x256 ![0, 511, 0] H slices_S256x512x256_S256x1x256_0_511_0)
      shapeCasts_S256x1x256_S256x256 (ix2 b h) = H (ix3 b (511 : Fin 512) h) := by
  rw [shapeCast_apply _ shapeCasts_S256x1x256_S256x256 (ix2 b h) (ix3 b (0 : Fin 1) h) (by
    rw [Shape.rowMajor_val_three, Shape.rowMajor_val_two]
    show (b.val * 1 + 0) * 256 + h.val = b.val * 256 + h.val
    omega)]
  exact slice3_axis1_apply 511 H slices_S256x512x256_S256x1x256_0_511_0 b (0 : Fin 1) h (511 : Fin 512) rfl

/-- The logits from all hidden states, at `(b, n)`: the output layer on the last step's. -/
theorem outOf_apply (H : FVec Ideal S256x512x256 .f32) (W : FVec Ideal S32000x256 .f32) (β : FVec Ideal S32000 .f32)
    (b : Fin 256) (n : Fin 32000) :
    outOf H W β (ix2 b n)
      = head (fun b h => H (ix3 b (511 : Fin 512) h)) (fun n h => W (ix2 n h)) (fun n => β (ix1 n)) b n := by
  unfold outOf
  show FloatOps.dotGeneral dot_S256x256_S256x32000_S256x32000_1_0_0_1_n_n none _
        (shapeCast S256x256 (extractStridedSlice S256x1x256 ![0, 511, 0] H slices_S256x512x256_S256x1x256_0_511_0)
          shapeCasts_S256x1x256_S256x256)
        (transpose S256x32000 [1, 0] W transposes_S32000x256_S256x32000_1_0) (ix2 b n) + _ = _
  rw [PlainDot.dotGeneral_apply dot_S256x256_S256x32000_S256x32000_1_0_0_1_n_n rfl none _ _ _ b n, bias2_apply]
  refine congrArg (· + β (ix1 n)) (Finset.sum_congr rfl fun h _ => ?_)
  rw [last_apply, transpose_ix2_apply]

/-- THE REFERENCE'S RESULT TERM IS THE LOGITS. -/
theorem result_eq (X : IVec S256x512 32) (C : FVec Ideal S32000x128 .f32) (Ui : FVec Ideal S128x256 .f32) (bi : FVec Ideal S256 .f32)
    (Uc : FVec Ideal S128x256 .f32) (bc : FVec Ideal S256 .f32) (Uo : FVec Ideal S128x256 .f32) (bo : FVec Ideal S256 .f32)
    (W : FVec Ideal S32000x256 .f32) (bout : FVec Ideal S32000 .f32) :
    outOf (hidAll X C Ui bi Uc bc Uo bo) W bout = logits X C Ui bi Uc bc Uo bo W bout := by
  funext j
  obtain ⟨b, n, rfl⟩ : ∃ (b : Fin 256) (n : Fin 32000), j = ix2 b n := ⟨j 0, j 1, eq_ix2 j⟩
  rw [outOf_apply]
  unfold logits
  simp only [hidAll_apply]

end Cert.ReferenceIdeal.Logits

end
-- ==== Proof.lean ====
/-
  The proof of `Cert.Claim`: the kernel and the reference compute the same logits.

  Both programs take 256 token sequences of length 512, an embedding table, the weights of a two-layer LSTM and an
  output layer. The first layer never updates its state, so its hidden state at a step is a function of that step's
  token alone, and the logits are read off the last step:
      logits (b, n) = Σ_h cell_b(h) · W[n, h] + β_out[n],
      cell_b(h) = σ(o) · tanh (σ(i) · tanh (c)),   with each gate  Σ_k e_b[k] · U[k, h] + β[h]
  and `e_b` the embedding of the last token of sequence `b` (Proof/Spec.lean).

  The kernel gathers only the last tokens' embeddings on the host and computes the logits in ten column tiles of 3200,
  each tile recomputing the small hidden state and multiplying it with a tile of the output weights; the ten tiles
  cover the result (Proof/KernelBody.lean, KernelHost.lean, KernelValue.lean). The reference embeds every token,
  computes the first layer at all 512 steps, runs the second layer's recurrence in a loop whose carried values the
  result never reads, and computes the logits from the last step's hidden states; the buffer holding them is not
  written by the loop (Proof/RefLoop.lean, RefRun.lean), and the term it ends at is the same function of the arguments,
  index by index (Proof/RefTerm.lean, RefValue.lean). The two spellings of the logistic function — one operation in
  the kernel, `1 / (1 + e^(-x))` in the reference — are one function on the extended reals, and a matrix product is
  the same finite sum however it is tiled or transposed. No step distributes or cancels, so finiteness of the inputs
  is never used.

  The frames of the two kernel programs are the generated ones; the reference's frame is its run with the result
  dropped; the idealization rewrote nothing, so `preserves` is trivial.
-/
import proofs.«101058_j36258113912845_1_alg».proof.Defs
import proofs.«101058_j36258113912845_1_alg».proof.Proof.Gen.Kernel
import proofs.«101058_j36258113912845_1_alg».proof.Proof.Gen.Kernel.Skeleton
import proofs.«101058_j36258113912845_1_alg».proof.Proof.Gen.Kernel.Launch
import proofs.«101058_j36258113912845_1_alg».proof.Proof.Gen.Kernel.Points
import proofs.«101058_j36258113912845_1_alg».proof.Proof.Gen.Kernel.Frame
import proofs.«101058_j36258113912845_1_alg».proof.Proof.Gen.KernelIdeal
import proofs.«101058_j36258113912845_1_alg».proof.Proof.Gen.KernelIdeal.Skeleton
import proofs.«101058_j36258113912845_1_alg».proof.Proof.Gen.KernelIdeal.Launch
import proofs.«101058_j36258113912845_1_alg».proof.Proof.Gen.KernelIdeal.Points
import proofs.«101058_j36258113912845_1_alg».proof.Proof.Gen.KernelIdeal.Frame
import proofs.«101058_j36258113912845_1_alg».proof.Proof.Gen.ReferenceIdeal
import proofs.«101058_j36258113912845_1_alg».proof.Proof.Gen.Pre_finite_inputs
import proofs.«101058_j36258113912845_1_alg».proof.Proof.Gen.KernelIdeal.Value
import proofs.«101058_j36258113912845_1_alg».proof.Proof.Gen.ReferenceIdeal.Run
import proofs.«101058_j36258113912845_1_alg».proof.Proof.KernelValue
import proofs.«101058_j36258113912845_1_alg».proof.Proof.RefRun
import proofs.«101058_j36258113912845_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result dropped. -/
theorem frame_referenceIdeal : Cert.frame_ReferenceIdeal := fun m ρ _ =>
  (θ_run Cert.ReferenceIdeal.defs _ _).mono (fun _ h c => (h c).2) (Cert.ReferenceIdeal.Loop.run (F := Ideal) m ρ)

/-- From memories agreeing on the arguments the kernel's result array ends at the logits of the arguments, and the
    reference's at a term that is the same function of the same arguments. -/
theorem algebraic : Cert.algebraic_KernelIdeal_ReferenceIdeal := by
  intro m ρ m' ρ' _ hagree
  refine ⟨_, Cert.KernelIdeal.Logits.run m ρ, ?_⟩
  refine (θ_run Cert.ReferenceIdeal.defs _ _).mono (fun _ h c => ⟨(h c).1.trans ?_, (h c).2⟩)
    (Cert.ReferenceIdeal.Loop.run (F := Ideal) m' ρ')
  rw [Cert.ReferenceIdeal.Logits.result_eq,
    (hagree c).1,
    (hagree c).2.1,
    (hagree c).2.2.1,
    (hagree c).2.2.2.2.1,
    (hagree c).2.2.2.2.2.2.2.2.1,
    (hagree c).2.2.2.2.2.2.2.2.2.2.1,
    (hagree c).2.2.2.2.2.2.2.2.2.2.2.1,
    (hagree c).2.2.2.2.2.2.2.2.2.2.2.2.2.1,
    (hagree c).2.2.2.2.2.2.2.2.2.2.2.2.2.2.2.2.2.2.2.2.2.2.2.2.2.2.1,
    (hagree c).2.2.2.2.2.2.2.2.2.2.2.2.2.2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
